-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S1600000 : Shape := ⟨1, ![1600000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S200000x16 .f32) (main_arg1 : IVec S1600000 32) (main_arg2 : IVec S1600000 32) (main_arg3 : IVec S800000 32) (main_arg4 : IVec S800000 32) (main_arg5 : FVec F S16x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x128 .f32 := Host.absf main_arg5
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S200000x16 : Shape := ⟨2, ![200000, 16]⟩
abbrev S1600000 : Shape := ⟨1, ![1600000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S200000x128 : Shape := ⟨2, ![200000, 128]⟩
abbrev S10000x16 : Shape := ⟨2, ![10000, 16]⟩
abbrev S10000x128 : Shape := ⟨2, ![10000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S800000x1 : Shape := ⟨2, ![800000, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 68
  | .vmem => 30
  | .smem => 0
  | _ => 0

abbrev bufTy : (tb : Table) → Fin (tcTables nBuf tb) → BufTy
  | .hbm, ⟨0, _⟩ => ⟨S200000x16, .f32⟩
  | .hbm, ⟨1, _⟩ => ⟨S1600000, .i32⟩
  | .hbm, ⟨2, _⟩ => ⟨S1600000, .i32⟩
  | .hbm, ⟨3, _⟩ => ⟨S800000, .i32⟩
  | .hbm, ⟨4, _⟩ => ⟨S800000, .i32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S200000x128, .bf16⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .bf16⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .local _ .vmem, ⟨0, _⟩ => ⟨S10000x16, .f32⟩
  | .local _ .vmem, ⟨1, _⟩ => ⟨S10000x16, .f32⟩
  | .local _ .vmem, ⟨2, _⟩ => ⟨S16x128, .f32⟩
  | .local _ .vmem, ⟨3, _⟩ => ⟨S128, .f32⟩
  | .local _ .vmem, ⟨4, _⟩ => ⟨S10000x128, .bf16⟩
  | .local _ .vmem, ⟨5, _⟩ => ⟨S10000x128, .bf16⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  dot_S10000x16_S16x128_S10000x128_1_0_0_1_n_n_wf : DotDims.WF S10000x16 S16x128 S10000x128 [1] [0] [0] [1] [] []
  gather_S200000x128_S1600000x1_S1600000x128_1_0_n_n_0_1_1128_wf : GatherDims.WF S200000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S200000x16.size a
  hwx0_0 : ∀ i : grid0.Coords, EltTy.bits .f32 = 32 ∨ (Rect.block (s := S200000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .bf16 = 32 ∨ (Rect.block (s := S200000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .bf16 = 32 ∨ (Rect.block (s := S200000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .bf16 = 32 ∨ (Rect.block (s := S100000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S200000x16 : Shape := ⟨2, ![200000, 16]⟩
abbrev S1600000 : Shape := ⟨1, ![1600000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S200000x128 : Shape := ⟨2, ![200000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S800000x1 : Shape := ⟨2, ![800000, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 91
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S1600000, .i32⟩
  | .hbm, ⟨2, _⟩ => ⟨S1600000, .i32⟩
  | .hbm, ⟨3, _⟩ => ⟨S800000, .i32⟩
  | .hbm, ⟨4, _⟩ => ⟨S800000, .i32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S200000x128, .f32⟩
  | .hbm, ⟨12, _⟩ => ⟨S1x128, .f32⟩
  | .hbm, ⟨13, _⟩ => ⟨S200000x128, .f32⟩
  | .hbm, ⟨14, _⟩ => ⟨S200000x128, .f32⟩
  | .hbm, ⟨15, _⟩ => ⟨S_, .f32⟩
  | .hbm, ⟨16, _⟩ => ⟨S200000x128, .f32⟩
  | .hbm, ⟨17, _⟩ => ⟨S200000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S200000x128_S100000x128_0_0 : S200000x128.Slices ![0, 0] S100000x128
  bcast_S1x128_S100000x128_0_1 : S1x128.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S100000x128_S50000x128_0_0 : S100000x128.Slices ![0, 0] S50000x128
  bcast_S1x128_S50000x128_0_1 : S1x128.BroadcastsInDim S50000x128 (![0, 1] : Fin 2 → Fin S50000x128.rank)
  dot_S200000x16_S16x128_S200000x128_1_0_0_1_n_n_wf : DotDims.WF S200000x16 S16x128 S200000x128 [1] [0] [0] [1] [] []
  gather_S200000x128_S1600000x1_S1600000x128_1_0_n_n_0_1_1128_wf : GatherDims.WF S200000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def dot_S200000x16_S16x128_S200000x128_1_0_0_1_n_n : DotDims S200000x16 S16x128 S200000x128 where
  lhsContracting := [1]
  rhsContracting := [0]
  lhsNonContracting := [0]
  rhsNonContracting := [1]
  lhsBatch := []
  rhsBatch := []
  wf := dot_S200000x16_S16x128_S200000x128_1_0_0_1_n_n_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two-layer neighbour-mean network on the extended reals, as functions of whole arrays.

  A node's first features are a rectified affine map of its inputs, `max (x · w + b) 0`.  A combine layer takes the
  features `H` of all nodes, the summed messages `msg` of the first `M` nodes and a per-node divisor, and returns, for
  node `p < M` and feature `q`,

      ((Σₖ H[p,k] · Ws[k,q] + bs[q]) + Σₖ mean[p,k] · Wn[k,q]) + bn[q],

  where `mean[p,k]` is the summed message over the divisor.  One program multiplies the message by a stored reciprocal
  `1 / c` (`mix`), the other divides it by `c` (`mean`); for `c ≠ 0` both are `msg · c⁻¹`, infinities included, so
  the two layers are one function (`mix_eq_mean`).
-/
import Idealize.ShloMosaic.PureOps.Ideal.Laws
import Idealize.ShloMosaic.Lib.ValueIdx

noncomputable section

open scoped BigOperators

namespace Cert.Sage

open Idealize.ShloMosaic Idealize.ShloMosaic.ValueIdx

/-- A matrix and a vector of extended reals over literal extents. -/
abbrev Mat (r c : Nat) : Type := (⟨2, ![r, c]⟩ : Shape).Idx → EReal
abbrev Vect (n : Nat) : Type := (⟨1, ![n]⟩ : Shape).Idx → EReal

/-- The first layer at node `p`, feature `q`: the rectified affine map of the node's 16 inputs. -/
def projAt {R : Nat} (x : Mat R 16) (w : Mat 16 128) (b : Vect 128) (p : Fin R) (q : Fin 128) : EReal :=
  max ((∑ k : Fin 16, x (ix2 p k) * w (ix2 k q)) + b (ix1 q)) 0

def proj {R : Nat} (x : Mat R 16) (w : Mat 16 128) (b : Vect 128) : Mat R 128 :=
  fun i => projAt x w b (i 0) (i 1)

theorem proj_ix2 {R : Nat} (x : Mat R 16) (w : Mat 16 128) (b : Vect 128) (p : Fin R) (q : Fin 128) :
    proj x w b (ix2 p q) = projAt x w b p q := rfl

/-- The combine layer with the message scaled by a stored per-node factor `rcp[p,0]`. -/
def mixAt {N M : Nat} (hMN : M ≤ N) (H : Mat N 128) (msg : Mat M 128) (rcp : Mat M 1) (Ws : Mat 128 128)
    (bs : Vect 128) (Wn : Mat 128 128) (bn : Vect 128) (p : Fin M) (q : Fin 128) : EReal :=
  (((∑ k : Fin 128, H (ix2 (Fin.castLE hMN p) k) * Ws (ix2 k q)) + bs (ix1 q))
    + ∑ k : Fin 128, (msg (ix2 p k) * rcp (ix2 p (0 : Fin 1))) * Wn (ix2 k q)) + bn (ix1 q)

def mix {N M : Nat} (hMN : M ≤ N) (H : Mat N 128) (msg : Mat M 128) (rcp : Mat M 1) (Ws : Mat 128 128)
    (bs : Vect 128) (Wn : Mat 128 128) (bn : Vect 128) : Mat M 128 :=
  fun i => mixAt hMN H msg rcp Ws bs Wn bn (i 0) (i 1)

theorem mix_ix2 {N M : Nat} (hMN : M ≤ N) (H : Mat N 128) (msg : Mat M 128) (rcp : Mat M 1) (Ws : Mat 128 128)
    (bs : Vect 128) (Wn : Mat 128 128) (bn : Vect 128) (p : Fin M) (q : Fin 128) :
    mix hMN H msg rcp Ws bs Wn bn (ix2 p q) = mixAt hMN H msg rcp Ws bs Wn bn p q := rfl

/-- The combine layer with the message divided by the per-node divisor `cm[p]`. -/
def meanAt {N M : Nat} (hMN : M ≤ N) (H : Mat N 128) (msg : Mat M 128) (cm : Vect M) (Ws : Mat 128 128)
    (bs : Vect 128) (Wn : Mat 128 128) (bn : Vect 128) (p : Fin M) (q : Fin 128) : EReal :=
  (((∑ k : Fin 128, H (ix2 (Fin.castLE hMN p) k) * Ws (ix2 k q)) + bs (ix1 q))
    + ∑ k : Fin 128, Ideal.div (msg (ix2 p k)) (cm (ix1 p)) * Wn (ix2 k q)) + bn (ix1 q)

def mean {N M : Nat} (hMN : M ≤ N) (H : Mat N 128) (msg : Mat M 128) (cm : Vect M) (Ws : Mat 128 128)
    (bs : Vect 128) (Wn : Mat 128 128) (bn : Vect 128) : Mat M 128 :=
  fun i => meanAt hMN H msg cm Ws bs Wn bn (i 0) (i 1)

theorem mean_ix2 {N M : Nat} (hMN : M ≤ N) (H : Mat N 128) (msg : Mat M 128) (cm : Vect M) (Ws : Mat 128 128)
    (bs : Vect 128) (Wn : Mat 128 128) (bn : Vect 128) (p : Fin M) (q : Fin 128) :
    mean hMN H msg cm Ws bs Wn bn (ix2 p q) = meanAt hMN H msg cm Ws bs Wn bn p q := rfl

/-- The rectifier, entry by entry. -/
def relu {r c : Nat} (v : Mat r c) : Mat r c := fun i => max (v i) 0

/-- A product with the reciprocal of a nonzero extended real is the quotient: both are `x · y⁻¹`. -/
theorem mul_one_div (x y : EReal) (hy : y ≠ 0) : x * Ideal.div 1 y = Ideal.div x y := by
  unfold Ideal.div
  rw [if_neg hy, if_neg hy, one_mul]

/-- A maximum with one is not zero. -/
theorem max_one_ne_zero (x : EReal) : max x 1 ≠ 0 :=
  ne_of_gt (lt_of_lt_of_le zero_lt_one (le_max_right x 1))

/-- Scaling by the stored reciprocal of a nonzero divisor is dividing by it: the two combine layers agree. -/
theorem mix_eq_mean {N M : Nat} (hMN : M ≤ N) (H : Mat N 128) (msg : Mat M 128) (rcp : Mat M 1) (cm : Vect M)
    (Ws : Mat 128 128) (bs : Vect 128) (Wn : Mat 128 128) (bn : Vect 128)
    (hr : ∀ p : Fin M, rcp (ix2 p (0 : Fin 1)) = Ideal.div 1 (cm (ix1 p))) (hc : ∀ p : Fin M, cm (ix1 p) ≠ 0) :
    mix hMN H msg rcp Ws bs Wn bn = mean hMN H msg cm Ws bs Wn bn := by
  funext i
  obtain ⟨p, q, rfl⟩ : ∃ (p : Fin M) (q : Fin 128), i = ix2 p q := ⟨i 0, i 1, eq_ix2 i⟩
  rw [mix_ix2, mean_ix2]
  unfold mixAt meanAt
  refine congrArg (· + bn (ix1 q)) (congrArg (_ + ·) (Finset.sum_congr rfl fun k _ => ?_))
  rw [hr p, mul_one_div _ _ (hc p)]

end Cert.Sage

end
-- ==== Proof.LibBcastInDim.lean ====
/-
  A `broadcast_in_dim` of small shapes read at an index given by coordinates: a scalar spread over any shape; a
  length-`a` vector set up as the column `[a, 1]`; a column `[a, 1]` repeated along the rows to `[a, b]`; a length-`b`
  vector set up as the row `[1, b]`; a row `[1, b]` repeated down the columns to `[a, b]`. Each reads the operand at the
  coordinates the result's axes hand down, and at `0` on the operand's unit axes.
-/
import Idealize.ShloMosaic.Lib.Pipeline.Value
import Idealize.ShloMosaic.Lib.ValueIdx

namespace Idealize.ShloMosaic.ValueIdx

open Idealize.ShloMosaic

variable {α : Type}

/-- A scalar spread over a shape reads the scalar everywhere. -/
theorem bcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A length-`a` vector as the column `[a, 1]`: at `(i, z)` it reads the vector at `i`. -/
theorem bcastInDim_a_a1_apply {a : ℕ} (h : (⟨1, ![a]⟩ : Shape).BroadcastsInDim ⟨2, ![a, 1]⟩ (![0] : Fin 1 → Fin 2))
    (x : (⟨1, ![a]⟩ : Shape).Idx → α) (i : Fin a) (z : Fin 1) :
    broadcastInDim ⟨2, ![a, 1]⟩ (![0] : Fin 1 → Fin 2) h x (ix2 i z) = x (ix1 i) := by
  refine broadcastInDim_apply _ h x (ix2 i z) (ix1 i) fun ax => ?_
  match ax with
  | ⟨0, _⟩ =>
    show i.val = if a = 1 then 0 else i.val
    split
    · have := i.isLt; omega
    · rfl

/-- A column `[a, 1]` repeated to `[a, b]`: at `(i, j)` it reads the column at `(i, 0)`. -/
theorem bcastInDim_a1_ab_apply {a b : ℕ}
    (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A length-`b` vector as the row `[1, b]`: at `(z, j)` it reads the vector at `j`. -/
theorem bcastInDim_b_1b_apply {b : ℕ} (h : (⟨1, ![b]⟩ : Shape).BroadcastsInDim ⟨2, ![1, b]⟩ (![1] : Fin 1 → Fin 2))
    (x : (⟨1, ![b]⟩ : Shape).Idx → α) (z : Fin 1) (j : Fin b) :
    broadcastInDim ⟨2, ![1, b]⟩ (![1] : Fin 1 → Fin 2) h x (ix2 z j) = x (ix1 j) := by
  refine broadcastInDim_apply _ h x (ix2 z j) (ix1 j) fun ax => ?_
  match ax with
  | ⟨0, _⟩ =>
    show j.val = if b = 1 then 0 else j.val
    split
    · have := j.isLt; omega
    · rfl

/-- A row `[1, b]` repeated to `[a, b]`: at `(i, j)` it reads the row at `(0, j)`. -/
theorem bcastInDim_1b_ab_apply {a b : ℕ}
    (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Idealize.ShloMosaic.ValueIdx
-- ==== Proof.KHost.lean ====
/-
  The host operations between the idealized kernel's regions, as functions of what they read.

  Each stretch takes the node features `H` of the previous region, the edges' source nodes `src` and destination
  nodes `dst`, and leaves three arrays for the next region: the summed messages (row `H[src e]` added into row
  `dst e` for every edge `e`, negative sources wrapped once), the stored reciprocal `1 / max (count, 1)` of each
  destination's edge count as a column, and everything else untouched. The divisor `max (count, 1)` is never zero and
  the column holds `1 / divisor` at every row.
-/
import proofs.«112063_j11708080849339_2_alg».proof.Proof.Gen.KernelIdeal.Launch
import proofs.«112063_j11708080849339_2_alg».proof.Proof.LibBcastInDim
import Idealize.ShloMosaic.PureOps.Ideal
import Idealize.ShloMosaic.PureOps.Ideal.Laws
import Idealize.ShloMosaic.Lib.StableHlo.Run
import Idealize.ShloMosaic.Lib.IdealHost

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

/-! ## The first stretch: 1,600,000 edges into 100,000 nodes -/

/-- The summed messages: row `H[src e]` added into row `dst e`, from zero. -/
def msgSum1 (H : (⟨S200000x128, .bf16⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32
      (Host.gather gather_S200000x128_S1600000x1_S1600000x128_1_0_n_n_0_1_1128 H
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 200000#32))) src)))
      bitsLt_bf16_f32)

/-- The divisor: each node's edge count, or one where it has none. -/
def divisor1 (dst : (⟨S1600000, .i32⟩ : BufTy).Contents (Elt Ideal)) : (⟨S100000, .f32⟩ : BufTy).Contents (Elt Ideal) :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The stored reciprocal of the divisor, as a column. -/
def recip1 (dst : (⟨S1600000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32)) (divisor1 dst))

theorem after1_msg (X : Valuation τ sig (Elt Ideal)) :
    StableHlo.after (hostOps1 (F := Ideal)) X (Proc.devRef .tc main_v11)
      = msgSum1 (X (Proc.devRef .tc main_v0)) (X (Proc.devRef .tc main_arg1)) (X (Proc.devRef .tc main_arg2)) := by
  after_results
  rfl

theorem after1_recip (X : Valuation τ sig (Elt Ideal)) :
    StableHlo.after (hostOps1 (F := Ideal)) X (Proc.devRef .tc main_v20) = recip1 (X (Proc.devRef .tc main_arg2)) := by
  after_results
  rfl

/-- The stretch writes neither the previous region's features nor any argument. -/
theorem after1_v0 (X : Valuation τ sig (Elt Ideal)) :
    StableHlo.after (hostOps1 (F := Ideal)) X (Proc.devRef .tc main_v0) = X (Proc.devRef .tc main_v0) := by after_results
theorem after1_arg3 (X : Valuation τ sig (Elt Ideal)) :
    StableHlo.after (hostOps1 (F := Ideal)) X (Proc.devRef .tc main_arg3) = X (Proc.devRef .tc main_arg3) := by after_results
theorem after1_arg4 (X : Valuation τ sig (Elt Ideal)) :
    StableHlo.after (hostOps1 (F := Ideal)) X (Proc.devRef .tc main_arg4) = X (Proc.devRef .tc main_arg4) := by after_results
theorem after1_arg7 (X : Valuation τ sig (Elt Ideal)) :
    StableHlo.after (hostOps1 (F := Ideal)) X (Proc.devRef .tc main_arg7) = X (Proc.devRef .tc main_arg7) := by after_results
theorem after1_arg8 (X : Valuation τ sig (Elt Ideal)) :
    StableHlo.after (hostOps1 (F := Ideal)) X (Proc.devRef .tc main_arg8) = X (Proc.devRef .tc main_arg8) := by after_results
theorem after1_arg9 (X : Valuation τ sig (Elt Ideal)) :
    StableHlo.after (hostOps1 (F := Ideal)) X (Proc.devRef .tc main_arg9) = X (Proc.devRef .tc main_arg9) := by after_results
theorem after1_arg10 (X : Valuation τ sig (Elt Ideal)) :
    StableHlo.after (hostOps1 (F := Ideal)) X (Proc.devRef .tc main_arg10) = X (Proc.devRef .tc main_arg10) := by after_results

/-- A maximum with the all-ones vector is nowhere zero. -/
theorem max_ones_ne1 (A : (⟨S100000, .f32⟩ : BufTy).Contents (Elt Ideal)) (p : Fin 100000) :
    (maximumf A (broadcastInDim S100000 ![] bcast_S_S100000 (constant (F := Ideal) S_ .f32 0x3F800000#32)) (ix1 p) : EReal) ≠ 0 := by
  have e : (maximumf A (broadcastInDim S100000 ![] bcast_S_S100000 (constant (F := Ideal) S_ .f32 0x3F800000#32)) (ix1 p) : EReal)
      = max (A (ix1 p)) (Ideal.ofBits .f32 0x3F800000#32) := rfl
  rw [e, Ideal.ofBits_one_f32]
  exact ne_of_gt (lt_of_lt_of_le zero_lt_one (le_max_right _ 1))

/-- The divisor is a maximum with one: never zero. -/
theorem divisor1_ne (dst : (⟨S1600000, .i32⟩ : BufTy).Contents (Elt Ideal)) (p : Fin 100000) : (divisor1 dst (ix1 p) : EReal) ≠ 0 :=
  max_ones_ne1 _ p

/-- The quotient of the all-ones vector by `D`, set up as a column, holds `1 / D[p]` at row `p`. -/
theorem ones_div_col1 (D : (⟨S100000, .f32⟩ : BufTy).Contents (Elt Ideal)) (p : Fin 100000) :
    (broadcastInDim S100000x1 ![0] bcast_S100000_S100000x1_0
        (Host.divf (broadcastInDim S100000 ![] bcast_S_S100000 (constant (F := Ideal) S_ .f32 0x3F800000#32)) D) (ix2 p (0 : Fin 1)) : EReal)
      = Ideal.div 1 (D (ix1 p)) := by
  rw [bcastInDim_a_a1_apply]
  have e : (Host.divf (broadcastInDim S100000 ![] bcast_S_S100000 (constant (F := Ideal) S_ .f32 0x3F800000#32)) D (ix1 p) : EReal)
      = Ideal.div (Ideal.ofBits .f32 0x3F800000#32) (D (ix1 p)) := rfl
  rw [e, Ideal.ofBits_one_f32]

/-- The column holds one over the divisor at every row. -/
theorem recip1_at (dst : (⟨S1600000, .i32⟩ : BufTy).Contents (Elt Ideal)) (p : Fin 100000) :
    (recip1 dst (ix2 p (0 : Fin 1)) : EReal) = Ideal.div 1 (divisor1 dst (ix1 p)) :=
  ones_div_col1 (divisor1 dst) p

/-! ## The second stretch: 800,000 edges into 50,000 nodes -/

def msgSum2 (H : (⟨S100000x128, .bf16⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32
      (Host.gather gather_S100000x128_S800000x1_S800000x128_1_0_n_n_0_1_1128 H
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src)))
      bitsLt_bf16_f32)

def divisor2 (dst : (⟨S800000, .i32⟩ : BufTy).Contents (Elt Ideal)) : (⟨S50000, .f32⟩ : BufTy).Contents (Elt Ideal) :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

def recip2 (dst : (⟨S800000, .i32⟩ : BufTy).Contents (Elt Ideal)) : (⟨S50000x1, .f32⟩ : BufTy).Contents (Elt Ideal) :=
  broadcastInDim S50000x1 ![0] bcast_S50000_S50000x1_0
    (Host.divf (broadcastInDim S50000 ![] bcast_S_S50000 (constant (F := Ideal) S_ .f32 0x3F800000#32)) (divisor2 dst))

theorem after2_msg (X : Valuation τ sig (Elt Ideal)) :
    StableHlo.after (hostOps2 (F := Ideal)) X (Proc.devRef .tc main_v32)
      = msgSum2 (X (Proc.devRef .tc main_v21)) (X (Proc.devRef .tc main_arg3)) (X (Proc.devRef .tc main_arg4)) := by
  after_results
  rfl

theorem after2_recip (X : Valuation τ sig (Elt Ideal)) :
    StableHlo.after (hostOps2 (F := Ideal)) X (Proc.devRef .tc main_v41) = recip2 (X (Proc.devRef .tc main_arg4)) := by
  after_results
  rfl

theorem after2_v21 (X : Valuation τ sig (Elt Ideal)) :
    StableHlo.after (hostOps2 (F := Ideal)) X (Proc.devRef .tc main_v21) = X (Proc.devRef .tc main_v21) := by after_results
theorem after2_arg7 (X : Valuation τ sig (Elt Ideal)) :
    StableHlo.after (hostOps2 (F := Ideal)) X (Proc.devRef .tc main_arg7) = X (Proc.devRef .tc main_arg7) := by after_results
theorem after2_arg8 (X : Valuation τ sig (Elt Ideal)) :
    StableHlo.after (hostOps2 (F := Ideal)) X (Proc.devRef .tc main_arg8) = X (Proc.devRef .tc main_arg8) := by after_results
theorem after2_arg9 (X : Valuation τ sig (Elt Ideal)) :
    StableHlo.after (hostOps2 (F := Ideal)) X (Proc.devRef .tc main_arg9) = X (Proc.devRef .tc main_arg9) := by after_results
theorem after2_arg10 (X : Valuation τ sig (Elt Ideal)) :
    StableHlo.after (hostOps2 (F := Ideal)) X (Proc.devRef .tc main_arg10) = X (Proc.devRef .tc main_arg10) := by after_results

/-- A maximum with the all-ones vector is nowhere zero. -/
theorem max_ones_ne2 (A : (⟨S50000, .f32⟩ : BufTy).Contents (Elt Ideal)) (p : Fin 50000) :
    (maximumf A (broadcastInDim S50000 ![] bcast_S_S50000 (constant (F := Ideal) S_ .f32 0x3F800000#32)) (ix1 p) : EReal) ≠ 0 := by
  have e : (maximumf A (broadcastInDim S50000 ![] bcast_S_S50000 (constant (F := Ideal) S_ .f32 0x3F800000#32)) (ix1 p) : EReal)
      = max (A (ix1 p)) (Ideal.ofBits .f32 0x3F800000#32) := rfl
  rw [e, Ideal.ofBits_one_f32]
  exact ne_of_gt (lt_of_lt_of_le zero_lt_one (le_max_right _ 1))

/-- The divisor is a maximum with one: never zero. -/
theorem divisor2_ne (dst : (⟨S800000, .i32⟩ : BufTy).Contents (Elt Ideal)) (p : Fin 50000) : (divisor2 dst (ix1 p) : EReal) ≠ 0 :=
  max_ones_ne2 _ p

/-- The quotient of the all-ones vector by `D`, set up as a column, holds `1 / D[p]` at row `p`. -/
theorem ones_div_col2 (D : (⟨S50000, .f32⟩ : BufTy).Contents (Elt Ideal)) (p : Fin 50000) :
    (broadcastInDim S50000x1 ![0] bcast_S50000_S50000x1_0
        (Host.divf (broadcastInDim S50000 ![] bcast_S_S50000 (constant (F := Ideal) S_ .f32 0x3F800000#32)) D) (ix2 p (0 : Fin 1)) : EReal)
      = Ideal.div 1 (D (ix1 p)) := by
  rw [bcastInDim_a_a1_apply]
  have e : (Host.divf (broadcastInDim S50000 ![] bcast_S_S50000 (constant (F := Ideal) S_ .f32 0x3F800000#32)) D (ix1 p) : EReal)
      = Ideal.div (Ideal.ofBits .f32 0x3F800000#32) (D (ix1 p)) := rfl
  rw [e, Ideal.ofBits_one_f32]

/-- The column holds one over the divisor at every row. -/
theorem recip2_at (dst : (⟨S800000, .i32⟩ : BufTy).Contents (Elt Ideal)) (p : Fin 50000) :
    (recip2 dst (ix2 p (0 : Fin 1)) : EReal) = Ideal.div 1 (divisor2 dst (ix1 p)) :=
  ones_div_col2 (divisor2 dst) p

end Cert.KernelIdeal.HostValue

end
-- ==== Proof.KValue.lean ====
/-
  The idealized kernel's result as one function of its eleven arguments: the first features, the first combine layer
  (rectified) over the messages summed along the first edge list, and the second combine layer over the messages
  summed along the second edge list. Each combine layer scales its messages by the stored reciprocal of the divisor.
-/
import proofs.«112063_j11708080849339_2_alg».proof.Proof.Spec
import proofs.«112063_j11708080849339_2_alg».proof.Proof.KHost

noncomputable section

namespace Cert.KernelIdeal.FoldValue

open Cert.KernelIdeal Cert.KernelIdeal.HostValue
open Idealize.ShloMosaic

/-- The first features. -/
def feat0 (x0 : (⟨S200000x16, .f32⟩ : BufTy).Contents (Elt Ideal)) (x5 : (⟨S16x128, .f32⟩ : BufTy).Contents (Elt Ideal)) (x6 : (⟨S128, .f32⟩ : BufTy).Contents (Elt Ideal)) : Cert.Sage.Mat 200000 128 :=
  Cert.Sage.proj x0 x5 x6

/-- The first combine layer, rectified: the features of the first 100000 nodes. -/
def feat1 (x0 : (⟨S200000x16, .f32⟩ : BufTy).Contents (Elt Ideal)) (x1 x2 : (⟨S1600000, .i32⟩ : BufTy).Contents (Elt Ideal)) (x5 : (⟨S16x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Cert.Sage.Mat 100000 128 :=
  Cert.Sage.relu (Cert.Sage.mix (by decide : 100000 ≤ 200000) (feat0 x0 x5 x6) (msgSum1 (feat0 x0 x5 x6) x1 x2) (recip1 x2) x7 x8 x9 x10)

/-- The second combine layer: the result, for the first 50000 nodes. -/
def value (x0 : (⟨S200000x16, .f32⟩ : BufTy).Contents (Elt Ideal)) (x1 x2 : (⟨S1600000, .i32⟩ : BufTy).Contents (Elt Ideal)) (x3 x4 : (⟨S800000, .i32⟩ : BufTy).Contents (Elt Ideal))
    (x5 : (⟨S16x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) : Cert.Sage.Mat 50000 128 :=
  Cert.Sage.mix (by decide : 50000 ≤ 100000) (feat1 x0 x1 x2 x5 x6 x7 x8 x9 x10)
    (msgSum2 (feat1 x0 x1 x2 x5 x6 x7 x8 x9 x10) x3 x4) (recip2 x4) x7 x8 x9 x10

end Cert.KernelIdeal.FoldValue

end
-- ==== Proof.KRun.lean ====
/-
  The idealized kernel's run with its result named.

  The program is three kernel regions among two stretches of host operations. Its generated frame runs the five
  segments in order and reads the last thread state against the final memory; here the same run is stated with one
  more fact read off that last state: the result array ends at the contents the fold through the segments gives it
  (`W5` at the result's buffer), beside the arguments ending as launched.
-/
import proofs.«112063_j11708080849339_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates without a fault; the result array ends at the last
    boundary's contents and every argument array as launched. -/
theorem run_named : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Region0.lean ====
/-
  The first layer, as the value the first kernel region leaves in its output array.

  The region walks 20 grid points.  At point t it holds rows [10000 t, 10000 t + 10000) of the input x : [200000, 16],
  the whole weight matrix w : [16, 128] and the whole bias b : [128], and writes rows [10000 t, 10000 t + 10000) of
  the output.  On the extended reals the block it writes is, at row p and column q of the block,

      max ((Σ_{k < 16} x[10000 t + p, k] · w[k, q]) + b[q]) 0,

  which is entry (10000 t + p, q) of `Cert.Sage.proj x w b`.  The 20 row blocks tile the 200000 rows, so the output
  array ends holding `Cert.Sage.proj x w b` — for whatever contents `V` the arrays have when the region is entered.
-/
import proofs.«112063_j11708080849339_2_alg».proof.Proof.Gen.KernelIdeal.Frame
import proofs.«112063_j11708080849339_2_alg».proof.Proof.Spec
import proofs.«112063_j11708080849339_2_alg».proof.Proof.LibMatDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R0

/-! ## Where the block's matrix product reads its operands

The product contracts the second axis of the [10000, 16] operand with the first axis of the [16, 128] operand: for the
entry `i` of the result and the contraction position `k`, the left operand is read at (i₀, k) and the right at (k, i₁). -/

theorem dot_lhs_row (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem dot_lhs_col (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
theorem dot_rhs_row (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
theorem dot_rhs_col (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-! ## The block the body computes, entry by entry -/

/-- On the extended reals the format changes are the identity, so the body's result at row `p`, column `q` of the
    block is the rectified affine map of row `p` of the input block: the product into the zero accumulator is the
    plain sum of products, the bias row is broadcast down the rows, and the rectifier's bound is the real 0. -/
theorem pay_apply (x0 : FVec Ideal S10000x16 .f32) (x1 : FVec Ideal S16x128 .f32) (x2 : FVec Ideal S128 .f32)
    (p : Fin 10000) (q : Fin 128) :
    k0_pay1 (F := Ideal) x0 x1 x2 (ix2 p q)
      = max ((∑ k : Fin 16, x0 (ix2 p k) * x1 (ix2 k q)) + x2 (ix1 q)) 0 := by
  unfold k0_pay1
  rw [truncf_apply, maximumf_apply, addf_apply, broadcast_apply]
  refine congrArg₂ max (congrArg₂ (· + ·) ?_ ?_) ?_
  · exact mat_dot_zero dot_S10000x16_S16x128_S10000x128_1_0_0_1_n_n none rfl rfl dot_lhs_row dot_lhs_col dot_rhs_row dot_rhs_col
      (truncf .bf16 x0 bitsLt_bf16_f32) (truncf .bf16 x1 bitsLt_bf16_f32) p q
  · rw [broadcastTo_1b_ab_apply, shapeCast_a_1a_apply]
  · exact Ideal.ofBits_zero_f32

/-- If the three blocks are restrictions of whole arrays `A0`, `A1`, `A2` — row `j₀` of the input block is row `i₀`
    of `A0`, column `j₁` of the weight block is column `i₁` of `A1`, and entry `j₁` of the bias block is entry `i₁` of
    `A2` — then the body's result at `j` is the first layer of the whole arrays at `i`. -/
theorem block_value (A0 : Cert.Sage.Mat 200000 16) (A1 : Cert.Sage.Mat 16 128) (A2 : Cert.Sage.Vect 128)
    (x0 : FVec Ideal S10000x16 .f32) (x1 : FVec Ideal S16x128 .f32) (x2 : FVec Ideal S128 .f32)
    (i : S200000x128.Idx) (j : S10000x128.Idx)
    (h0 : ∀ k : Fin 16, x0 (ix2 (j 0) k) = A0 (ix2 (i 0) k))
    (h1 : ∀ k : Fin 16, x1 (ix2 k (j 1)) = A1 (ix2 k (i 1)))
    (h2 : x2 (ix1 (j 1)) = A2 (ix1 (i 1))) :
    k0_pay1 (F := Ideal) x0 x1 x2 j = Cert.Sage.proj A0 A1 A2 i := by
  obtain ⟨p, q, rfl⟩ : ∃ (p : Fin 10000) (q : Fin 128), j = ix2 p q := ⟨j 0, j 1, eq_ix2 j⟩
  have h0' : ∀ k : Fin 16, x0 (ix2 p k) = A0 (ix2 (i 0) k) := h0
  have h1' : ∀ k : Fin 16, x1 (ix2 k q) = A1 (ix2 k (i 1)) := h1
  have h2' : x2 (ix1 q) = A2 (ix1 (i 1)) := h2
  rw [pay_apply]
  show _ = max ((∑ k : Fin 16, A0 (ix2 (i 0) k) * A1 (ix2 k (i 1))) + A2 (ix1 (i 1))) 0
  rw [h2']
  refine congrArg (max · 0) (congrArg (· + _) (Finset.sum_congr rfl fun k _ => ?_))
  rw [h0', h1']

/-! ## From the blocks to the array -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices at grid point `t`: the input and the output move down the rows together, block `t` at point
    `t`; the weights and the bias stay at their one block. -/
theorem index_facts : ∀ t : Fin cfg0.N, win0_3.index t (0 : Fin 2) = t.val
    ∧ win0_3.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0 :=
  (by decide +kernel : ∀ t : Fin grid0.N, _)

/-- What point `t` writes back is block `t` of the first layer of the whole arrays: a block's coordinate in its array
    is (block index) × (block extent) + (coordinate inside the block), and by `index_facts` the input block's rows are
    the output block's rows while the weight and bias blocks are the whole arrays. -/
theorem flushed_eq (c : Dev nD) (t : Fin cfg0.N) :
    (dat0 (F := Ideal) V c).flushed 3 t = ((cfg0.win 3).blk t).view.read (Elt Ideal)
      (Cert.Sage.proj (V c main_arg0) (V c main_arg5) (V c main_arg6)) := by
  show (cfg0.win 3).cut (grid0.coords t) ((dat0 V c).after 3 t) = _
  rw [after0_3]
  unfold out0_3
  rw [View.canon_unit_zero zero_offsets2]
  simp only [View.ld_unit_zero (S := S10000x16) zero_offsets2, View.ld_unit_zero (S := S16x128) zero_offsets2,
    View.ld_unit_zero (S := S128) zero_offsets1]
  obtain ⟨e30, e31, e00, e01, e10, e11, e20⟩ := index_facts t
  funext j
  show k0_pay1 (iblk0 V c 0 t) (iblk0 V c 1 t) (iblk0 V c 2 t) j
    = Cert.Sage.proj (V c main_arg0) (V c main_arg5) (V c main_arg6) (((cfg0.win 3).blk t).view.emb j)
  refine block_value (V c main_arg0) (V c main_arg5) (V c main_arg6) _ _ _ (((cfg0.win 3).blk t).view.emb j) j
    (fun k => ?_) (fun k => ?_) ?_
  · show V c main_arg0 (((cfg0.win 0).blk t).view.emb (ix2 (j 0) k))
      = V c main_arg0 (ix2 ((((cfg0.win 3).blk t).view.emb j) 0) k)
    refine congrArg (V c main_arg0 : S200000x16.Idx → EReal) (funext fun a => Fin.ext ?_)
    match a with
    | ⟨0, _⟩ =>
      show win0_0.index t (0 : Fin 2) * 10000 + 1 * (j 0).val = win0_3.index t (0 : Fin 2) * 10000 + 1 * (j 0).val
      rw [e00, e30]
    | ⟨1, _⟩ =>
      show win0_0.index t (1 : Fin 2) * 16 + 1 * k.val = k.val
      rw [e01]; omega
  · show V c main_arg5 (((cfg0.win 1).blk t).view.emb (ix2 k (j 1)))
      = V c main_arg5 (ix2 k ((((cfg0.win 3).blk t).view.emb j) 1))
    refine congrArg (V c main_arg5 : S16x128.Idx → EReal) (funext fun a => Fin.ext ?_)
    match a with
    | ⟨0, _⟩ =>
      show win0_1.index t (0 : Fin 2) * 16 + 1 * k.val = k.val
      rw [e10]; omega
    | ⟨1, _⟩ =>
      show win0_1.index t (1 : Fin 2) * 128 + 1 * (j 1).val = win0_3.index t (1 : Fin 2) * 128 + 1 * (j 1).val
      rw [e11, e31]
  · show V c main_arg6 (((cfg0.win 2).blk t).view.emb (ix1 (j 1)))
      = V c main_arg6 (ix1 ((((cfg0.win 3).blk t).view.emb j) 1))
    refine congrArg (V c main_arg6 : S128.Idx → EReal) (funext fun a => Fin.ext ?_)
    match a with
    | ⟨0, _⟩ =>
      show win0_2.index t (0 : Fin 1) * 128 + 1 * (j 1).val = win0_3.index t (1 : Fin 2) * 128 + 1 * (j 1).val
      rw [e20, e31]

/-- An index of the output array is in point `t`'s block iff each coordinate is in the block's range on its axis. -/
theorem mem_blk (t : Fin cfg0.N) (i : S200000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v0).slice (win0_3.rect t)).set ↔ _
  rw [View.set_slice_whole, Rect.mem_set_unit]
  exact Iff.rfl

/-- Every index of the output array is in some point's block: row `r` is in the block of point `r / 10000`. -/
theorem cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 20 := rfl
  let t : Fin cfg0.N := ⟨(i 0).val / 10000, by rw [hN]; omega⟩
  obtain ⟨e30, e31, -⟩ := index_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e30]
    show (i 0).val / 10000 * 10000 ≤ (i 0).val ∧ (i 0).val < (i 0).val / 10000 * 10000 + 10000
    omega
  | ⟨1, _⟩ =>
    show win0_3.index t (1 : Fin 2) * 128 ≤ (i 1).val ∧ (i 1).val < win0_3.index t (1 : Fin 2) * 128 + 128
    rw [e31]; omega

end R0

variable (V : (c : Dev nD) → (b : Ref sig .tc) → Buf (Elt Ideal) ((c : Thread nD τ).loc b))

/-- The output array after the region: the first layer `max (x · w + b) 0` of the input, weight and bias arrays as the
    region finds them. -/
theorem final0 (c : Dev nD) : ((dat0 (F := Ideal) V c).arrAt 3 cfg0.N : S200000x128.Idx → EReal)
      = Cert.Sage.proj (V c main_arg0) (V c main_arg5) (V c main_arg6) :=
  (dat0 V c).arrAt_eq_of_cover 3 (Cert.Sage.proj (V c main_arg0) (V c main_arg5) (V c main_arg6))
    (fun t _ => R0.flushed_eq V c t) R0.cover

end Cert.KernelIdeal.RegionValue

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.Region1.lean ====
/-
  The first combine layer, read off the pipelined kernel.

  The kernel walks 20 blocks of 5000 nodes. At block `t` it holds rows `5000 t … 5000 t + 4999` of the node
  features `H`, of the summed messages `msg` and of the column of reciprocal counts `rcp`, and the whole weight
  matrices and bias vectors, and stores, for row `p` of the block and feature `q`,

      max (((Σₖ H[r,k] · Ws[k,q] + bs[q]) + Σₖ (msg[r,k] · rcp[r,0]) · Wn[k,q]) + bn[q]) 0,     r = 5000 t + p.

  At the extended reals the roundings to the narrow format are the identity and each matrix product into a zero
  accumulator is the plain sum over the shared axis, so the stored block is rows `5000 t …` of ONE function of the
  arrays the kernel finds: the rectified mix of `Cert.Sage`. The 20 blocks tile the 100000 rows of the output (row
  `r` lies in block `r / 5000`), hence the output array ends as that function. Only the first 100000 of the 200000
  feature rows are read.
-/
import proofs.«112063_j11708080849339_2_alg».proof.Proof.Gen.KernelIdeal.Frame
import proofs.«112063_j11708080849339_2_alg».proof.Proof.Spec
import proofs.«112063_j11708080849339_2_alg».proof.Proof.LibMatDot
import proofs.«112063_j11708080849339_2_alg».proof.Proof.LibColumn
import Idealize.ShloMosaic.Lib.ValueLayout
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R1

/-! ## The block product `[5000,128] · [128,128]` at an entry -/

/-- The left operand is read at the entry's row … -/
theorem dot_lhs0 (j : S5000x128.Idx) (c : dot_S5000x128_S128x128_S5000x128_1_0_0_1_n_n.contr.Idx) :
    (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the position along the shared axis; -/
theorem dot_lhs1 (j : S5000x128.Idx) (c : dot_S5000x128_S128x128_S5000x128_1_0_0_1_n_n.contr.Idx) :
    (dot_S5000x128_S128x128_S5000x128_1_0_0_1_n_n.lhsIdx j c 1).val = (c ⟨0, by decide⟩).val :=
  dot_S5000x128_S128x128_S5000x128_1_0_0_1_n_n.lhsIdx_val_of_single rfl j c

/-- the right operand at that position … -/
theorem dot_rhs0 (j : S5000x128.Idx) (c : dot_S5000x128_S128x128_S5000x128_1_0_0_1_n_n.contr.Idx) :
    (dot_S5000x128_S128x128_S5000x128_1_0_0_1_n_n.rhsIdx j c 0).val = (c ⟨0, by decide⟩).val :=
  dot_S5000x128_S128x128_S5000x128_1_0_0_1_n_n.rhsIdx_val_of_single rfl j c

/-- … and at the entry's column. -/
theorem dot_rhs1 (j : S5000x128.Idx) (c : dot_S5000x128_S128x128_S5000x128_1_0_0_1_n_n.contr.Idx) :
    (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- So the product into the zero accumulator is, at entry `(p, q)`, `Σₖ l[p,k] · r[k,q]`. -/
theorem dot_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r
        (constant (F := Ideal) S5000x128 .f32 0x00000000#32) (ix2 p q)
      = ∑ k : Fin 128, l (ix2 p k) * r (ix2 k q) :=
  mat_dot_zero dot_S5000x128_S128x128_S5000x128_1_0_0_1_n_n none rfl rfl dot_lhs0 dot_lhs1 dot_rhs0 dot_rhs1 l r p q

/-! ## What the body stores, at an entry of the block -/

/-- The stored block at row `p`, feature `q`, over any loaded blocks: the roundings and the identity reshapes drop
    out, each product is its sum, a bias row `[128] → [1,128] → [5000,128]` reads the vector at `q`, and the
    reciprocal column `[5000,1] → [5000,128]` reads the column at `(p, 0)`. -/
theorem pay1_apply (x0 : FVec Ideal S5000x128 .bf16) (x1 : FVec Ideal S5000x128 .f32) (x2 : FVec Ideal S5000x1 .f32)
    (x3 x5 : FVec Ideal S128x128 .f32) (x4 x6 : FVec Ideal S128 .f32) (p : Fin 5000) (q : Fin 128) :
    k1_pay1 (F := Ideal) x0 x1 x2 x3 x5 x4 x6 (ix2 p q)
      = max ((((∑ k : Fin 128, x0 (ix2 p k) * x3 (ix2 k q)) + x4 (ix1 q))
          + ∑ k : Fin 128, (x1 (ix2 p k) * x2 (ix2 p (0 : Fin 1))) * x5 (ix2 k q)) + x6 (ix1 q)) 0 := by
  unfold k1_pay1
  simp only [shapeCast_self]
  show max (((FloatOps.matmul dot_S5000x128_S128x128_S5000x128_1_0_0_1_n_n none x0 (truncf .bf16 x3 bitsLt_bf16_f32)
        (constant (F := Ideal) S5000x128 .f32 0x00000000#32) (ix2 p q)
      + broadcastTo S5000x128 (shapeCast S1x128 x4 shapeCasts_S128_S1x128) broadcasts_S1x128_S5000x128 (ix2 p q))
      + FloatOps.matmul dot_S5000x128_S128x128_S5000x128_1_0_0_1_n_n none
        (truncf .bf16 (mulf x1 (broadcastTo S5000x128 x2 broadcasts_S5000x1_S5000x128)) bitsLt_bf16_f32)
        (truncf .bf16 x5 bitsLt_bf16_f32) (constant (F := Ideal) S5000x128 .f32 0x00000000#32) (ix2 p q))
      + broadcastTo S5000x128 (shapeCast S1x128 x6 shapeCasts_S128_S1x128) broadcasts_S1x128_S5000x128 (ix2 p q))
      (Ideal.ofBits .f32 0x00000000#32) = _
  rw [dot_apply, dot_apply, broadcastTo_1b_ab_apply, broadcastTo_1b_ab_apply, shapeCast_a_1a_apply, shapeCast_a_1a_apply,
    Ideal.ofBits_zero_f32]
  refine congrArg (fun s => max (((∑ k : Fin 128, x0 (ix2 p k) * x3 (ix2 k q)) + x4 (ix1 q) + s) + x6 (ix1 q)) 0)
    (Finset.sum_congr rfl fun k _ => ?_)
  show x1 (ix2 p k) * broadcastTo S5000x128 x2 broadcasts_S5000x1_S5000x128 (ix2 p k) * x5 (ix2 k q) = _
  rw [broadcastTo_a1_ab_apply]

/-! ## The blocks the body is given, as rows of the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 20 points. -/
theorem N1 : cfg1.N = 20 := by decide

/-- The block index maps over the grid: the three row-blocked inputs and the output sit at block `(t, 0)`, the
    weights and biases at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of the feature block at point `t` is row `5000 t + p` of the feature array. -/
theorem blk0_apply (c : Dev nD) (t : Fin cfg1.N) (p : Fin 5000) (k : Fin 128) (r : Fin 200000)
    (hr : r.val = 5000 * t.val + p.val) :
    iblk1 V c 0 t (ix2 p k) = (V c main_v0 : S200000x128.Idx → EReal) (ix2 r k) := by
  obtain ⟨e0, e1, -⟩ := idx_facts1 t
  show (V c main_v0 : S200000x128.Idx → EReal) (((cfg1.win 0).blk t).view.emb (ix2 p k)) = _
  refine congrArg (V c main_v0 : S200000x128.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the message block is row `5000 t + p` of the summed messages. -/
theorem blk1_apply (c : Dev nD) (t : Fin cfg1.N) (p : Fin 5000) (k : Fin 128) (r : Fin 100000)
    (hr : r.val = 5000 * t.val + p.val) :
    iblk1 V c 1 t (ix2 p k) = (V c main_v11 : S100000x128.Idx → EReal) (ix2 r k) := by
  obtain ⟨-, -, e0, e1, -⟩ := idx_facts1 t
  show (V c main_v11 : S100000x128.Idx → EReal) (((cfg1.win 1).blk t).view.emb (ix2 p k)) = _
  refine congrArg (V c main_v11 : S100000x128.Idx → EReal) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Row `p` of the reciprocal block is row `5000 t + p` of the reciprocal column. -/
theorem blk2_apply (c : Dev nD) (t : Fin cfg1.N) (p : Fin 5000) (z : Fin 1) (r : Fin 100000)
    (hr : r.val = 5000 * t.val + p.val) :
    iblk1 V c 2 t (ix2 p z) = (V c main_v20 : S100000x1.Idx → EReal) (ix2 r z) := by
  obtain ⟨-, -, -, -, e0, e1, -⟩ := idx_facts1 t
  show (V c main_v20 : S100000x1.Idx → EReal) (((cfg1.win 2).blk t).view.emb (ix2 p z)) = _
  refine congrArg (V c main_v20 : S100000x1.Idx → EReal) (funext fun a => Fin.ext ?_)
  match a with
  | ⟨0, _⟩ => show win1_2.index t (0 : Fin 2) * 5000 + 1 * p.val = r.val; omega
  | ⟨1, _⟩ => show win1_2.index t (1 : Fin 2) * 1 + 1 * z.val = z.val; omega

/-- The self weights are held whole at every point. -/
theorem blk3_apply (c : Dev nD) (t : Fin cfg1.N) (k q : Fin 128) :
    iblk1 V c 3 t (ix2 k q) = (V c main_arg7 : S128x128.Idx → EReal) (ix2 k q) := by
  obtain ⟨-, -, -, -, -, -, e0, e1, -⟩ := idx_facts1 t
  show (V c main_arg7 : S128x128.Idx → EReal) (((cfg1.win 3).blk t).view.emb (ix2 k q)) = _
  refine congrArg (V c main_arg7 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- So is the self bias, -/
theorem blk4_apply (c : Dev nD) (t : Fin cfg1.N) (q : Fin 128) :
    iblk1 V c 4 t (ix1 q) = (V c main_arg8 : S128.Idx → EReal) (ix1 q) := by
  obtain ⟨-, -, -, -, -, -, -, -, e0, -⟩ := idx_facts1 t
  show (V c main_arg8 : S128.Idx → EReal) (((cfg1.win 4).blk t).view.emb (ix1 q)) = _
  refine congrArg (V c main_arg8 : S128.Idx → EReal) (funext fun a => Fin.ext ?_)
  match a with
  | ⟨0, _⟩ => show win1_4.index t (0 : Fin 1) * 128 + 1 * q.val = q.val; omega

/-- the neighbour weights, -/
theorem blk5_apply (c : Dev nD) (t : Fin cfg1.N) (k q : Fin 128) :
    iblk1 V c 5 t (ix2 k q) = (V c main_arg9 : S128x128.Idx → EReal) (ix2 k q) := by
  obtain ⟨-, -, -, -, -, -, -, -, -, e0, e1, -⟩ := idx_facts1 t
  show (V c main_arg9 : S128x128.Idx → EReal) (((cfg1.win 5).blk t).view.emb (ix2 k q)) = _
  refine congrArg (V c main_arg9 : S128x128.Idx → EReal) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- and the neighbour bias. -/
theorem blk6_apply (c : Dev nD) (t : Fin cfg1.N) (q : Fin 128) :
    iblk1 V c 6 t (ix1 q) = (V c main_arg10 : S128.Idx → EReal) (ix1 q) := by
  obtain ⟨-, -, -, -, -, -, -, -, -, -, -, e0, -⟩ := idx_facts1 t
  show (V c main_arg10 : S128.Idx → EReal) (((cfg1.win 6).blk t).view.emb (ix1 q)) = _
  refine congrArg (V c main_arg10 : S128.Idx → EReal) (funext fun a => Fin.ext ?_)
  match a with
  | ⟨0, _⟩ => show win1_6.index t (0 : Fin 1) * 128 + 1 * q.val = q.val; omega

/-! ## From the blocks to the array -/

/-- What the region's output array ends holding: the rectified mix of the arrays the region finds. -/
abbrev G1 (c : Dev nD) : S100000x128.Idx → EReal :=
  Cert.Sage.relu (Cert.Sage.mix (by decide : 100000 ≤ 200000) (V c main_v0) (V c main_v11) (V c main_v20)
    (V c main_arg7) (V c main_arg8) (V c main_arg9) (V c main_arg10))

/-- The body's stored value at row `p` of point `t` is the rectified mix at row `r = 5000 t + p`. -/
theorem point_value1 (c : Dev nD) (t : Fin cfg1.N) (p : Fin 5000) (q : Fin 128) (r : Fin 100000)
    (hr : r.val = 5000 * t.val + p.val) :
    k1_pay1 (F := Ideal) (iblk1 V c 0 t) (iblk1 V c 1 t) (iblk1 V c 2 t) (iblk1 V c 3 t) (iblk1 V c 5 t)
      (iblk1 V c 4 t) (iblk1 V c 6 t) (ix2 p q) = G1 V c (ix2 r q) := by
  refine (pay1_apply (iblk1 V c 0 t) (iblk1 V c 1 t) (iblk1 V c 2 t) (iblk1 V c 3 t) (iblk1 V c 5 t)
      (iblk1 V c 4 t) (iblk1 V c 6 t) p q).trans ?_
  simp only [blk0_apply V c t p _ (Fin.castLE (by decide : 100000 ≤ 200000) r) hr, blk1_apply V c t p _ r hr,
    blk2_apply V c t p _ r hr, blk3_apply V c t, blk4_apply V c t, blk5_apply V c t, blk6_apply V c t]
  rfl

/-- What point `t` writes back is block `t` of the rectified mix. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  have ht : t.val < 20 := N1 ▸ t.isLt
  have hlt : 5000 * t.val + p.val < 100000 := by have := p.isLt; omega
  refine (point_value1 V c t p q ⟨5000 * t.val + p.val, hlt⟩ rfl).trans ?_
  show G1 V c _ = G1 V c (((cfg1.win 7).blk t).view.emb (ix2 p q))
  refine congrArg (G1 V c) (funext fun a => Fin.ext ?_)
  have e := idx_facts1 t
  match a with
  | ⟨0, _⟩ => show 5000 * t.val + p.val = win1_7.index t (0 : Fin 2) * 5000 + 1 * p.val; omega
  | ⟨1, _⟩ => show q.val = win1_7.index t (1 : Fin 2) * 128 + 1 * q.val; omega

/-- An index of the output array is in point `t`'s block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v21).slice (win1_7.rect t)).set ↔ _
  rw [View.set_slice_whole, Rect.mem_set_unit]
  exact Iff.rfl

/-- Row `r` of the output lies in the block of point `r / 5000`: the 20 blocks cover the array. -/
theorem cover1 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  refine ⟨⟨(i 0).val / 5000, by rw [N1]; omega⟩, flush1_7 _, ?_⟩
  rw [mem_blk1]
  have e := idx_facts1 ⟨(i 0).val / 5000, by rw [N1]; omega⟩
  intro a
  match a with
  | ⟨0, _⟩ =>
    show win1_7.index _ (0 : Fin 2) * 5000 ≤ (i 0).val ∧ (i 0).val < win1_7.index _ (0 : Fin 2) * 5000 + 5000
    rw [e.2.2.2.2.2.2.2.2.2.2.2.2.1]
    show (i 0).val / 5000 * 5000 ≤ (i 0).val ∧ (i 0).val < (i 0).val / 5000 * 5000 + 5000
    omega
  | ⟨1, _⟩ =>
    show win1_7.index _ (1 : Fin 2) * 128 ≤ (i 1).val ∧ (i 1).val < win1_7.index _ (1 : Fin 2) * 128 + 128
    rw [e.2.2.2.2.2.2.2.2.2.2.2.2.2]
    omega

end R1

variable (V : (c : Dev nD) → (b : Ref sig .tc) → Buf (Elt Ideal) ((c : Thread nD τ).loc b))

/-- The region's output array, whatever the region finds in its arrays: the rectified mix of them. -/
theorem final1 (c : Dev nD) : ((dat1 (F := Ideal) V c).arrAt 7 cfg1.N : S100000x128.Idx → EReal)
    = Cert.Sage.relu (Cert.Sage.mix (by decide : 100000 ≤ 200000) (V c main_v0) (V c main_v11) (V c main_v20)
        (V c main_arg7) (V c main_arg8) (V c main_arg9) (V c main_arg10)) :=
  (dat1 (F := Ideal) V c).arrAt_eq_of_cover 7 (R1.G1 V c) (fun t _ => R1.flushed1_eq V c t) R1.cover1

end Cert.KernelIdeal.RegionValue

end
-- ==== Proof.Region2.lean ====
/-
  The second combine layer, as the value the third kernel region leaves in its output array.

  The region walks 10 grid points.  At point t it holds rows [5000 t, 5000 t + 5000) of the node features
  H : [100000, 128] (only the first 50000 rows are ever reached), of the summed messages msg : [50000, 128] and of the
  stored per-node factors rcp : [50000, 1], together with the whole weights Ws, Wn : [128, 128] and biases
  bs, bn : [128], and writes rows [5000 t, 5000 t + 5000) of the output.  On the extended reals the block it writes is,
  at row p and column q of the block,

      ((Σ_k H[5000 t + p, k] · Ws[k, q] + bs[q]) + Σ_k (msg[5000 t + p, k] · rcp[5000 t + p, 0]) · Wn[k, q]) + bn[q],

  which is entry (5000 t + p, q) of `Cert.Sage.mix`.  The 10 row blocks tile the 50000 rows, so the output array ends
  holding `Cert.Sage.mix` of the arrays — for whatever contents `V` they have when the region is entered.
-/
import proofs.«112063_j11708080849339_2_alg».proof.Proof.Gen.KernelIdeal.Frame
import proofs.«112063_j11708080849339_2_alg».proof.Proof.Spec
import proofs.«112063_j11708080849339_2_alg».proof.Proof.LibMatDot
import proofs.«112063_j11708080849339_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R2

/-! ## Where the block's matrix products read their operands

Both products contract the second axis of a [5000, 128] operand with the first axis of a [128, 128] operand: for the
entry `i` of the result and the contraction position `k`, the left operand is read at (i₀, k) and the right at (k, i₁). -/

theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The block the body computes, entry by entry -/

/-- On the extended reals the format changes are the identity and the casts to the same shape change nothing, so the
    body's result at row `p`, column `q` of the block is the combine layer of row `p`: each product into the zero
    accumulator is the plain sum of products, the message row is scaled by the row's stored factor (the column
    broadcast along the row), and each bias row is broadcast down the rows. -/
theorem pay_apply (x0 : FVec Ideal S5000x128 .bf16) (x1 : FVec Ideal S5000x128 .f32) (x2 : FVec Ideal S5000x1 .f32)
    (w0 : FVec Ideal S128x128 .f32) (w1 : FVec Ideal S128x128 .f32) (b0 : FVec Ideal S128 .f32) (b1 : FVec Ideal S128 .f32)
    (p : Fin 5000) (q : Fin 128) :
    k2_pay1 (F := Ideal) x0 x1 x2 w0 w1 b0 b1 (ix2 p q)
      = (((∑ k : Fin 128, x0 (ix2 p k) * w0 (ix2 k q)) + b0 (ix1 q))
          + ∑ k : Fin 128, (x1 (ix2 p k) * x2 (ix2 p (0 : Fin 1))) * w1 (ix2 k q)) + b1 (ix1 q) := by
  unfold k2_pay1
  simp only [shapeCast_self]
  rw [addf_apply, addf_apply, addf_apply]
  refine congrArg₂ (· + ·) (congrArg₂ (· + ·) (congrArg₂ (· + ·) ?_ ?_) ?_) ?_
  · exact mat_dot_zero dot_S5000x128_S128x128_S5000x128_1_0_0_1_n_n none rfl rfl dot_lhs_row dot_lhs_col dot_rhs_row dot_rhs_col
      x0 (truncf .bf16 w0 bitsLt_bf16_f32) p q
  · rw [broadcastTo_1b_ab_apply, shapeCast_a_1a_apply]
  · refine (mat_dot_zero dot_S5000x128_S128x128_S5000x128_1_0_0_1_n_n none rfl rfl dot_lhs_row dot_lhs_col dot_rhs_row dot_rhs_col
      (truncf .bf16 (mulf x1 (broadcastTo S5000x128 x2 broadcasts_S5000x1_S5000x128)) bitsLt_bf16_f32)
      (truncf .bf16 w1 bitsLt_bf16_f32) p q).trans ?_
    refine Finset.sum_congr rfl fun k _ => ?_
    rw [truncf_apply, truncf_apply, mulf_apply, broadcastTo_a1_ab_apply]
  · rw [broadcastTo_1b_ab_apply, shapeCast_a_1a_apply]

/-- If the seven blocks are restrictions of whole arrays — row `j₀` of the feature, message and factor blocks is row
    `i₀` of `H` (among its first 50000 rows), `msg` and `rcp`, and column `j₁` of each weight block and entry `j₁` of
    each bias block is column, entry `i₁` of the whole weight, bias — then the body's result at `j` is the combine
    layer of the whole arrays at `i`. -/
theorem block_value (H : Cert.Sage.Mat 100000 128) (msg : Cert.Sage.Mat 50000 128) (rcp : Cert.Sage.Mat 50000 1)
    (Ws : Cert.Sage.Mat 128 128) (bs : Cert.Sage.Vect 128) (Wn : Cert.Sage.Mat 128 128) (bn : Cert.Sage.Vect 128)
    (x0 : FVec Ideal S5000x128 .bf16) (x1 : FVec Ideal S5000x128 .f32) (x2 : FVec Ideal S5000x1 .f32)
    (w0 : FVec Ideal S128x128 .f32) (w1 : FVec Ideal S128x128 .f32) (b0 : FVec Ideal S128 .f32) (b1 : FVec Ideal S128 .f32)
    (i : S50000x128.Idx) (j : S5000x128.Idx)
    (h0 : ∀ k : Fin 128, x0 (ix2 (j 0) k) = H (ix2 (Fin.castLE (by decide : 50000 ≤ 100000) (i 0)) k))
    (h1 : ∀ k : Fin 128, x1 (ix2 (j 0) k) = msg (ix2 (i 0) k))
    (h2 : x2 (ix2 (j 0) (0 : Fin 1)) = rcp (ix2 (i 0) (0 : Fin 1)))
    (h3 : ∀ k : Fin 128, w0 (ix2 k (j 1)) = Ws (ix2 k (i 1)))
    (h4 : b0 (ix1 (j 1)) = bs (ix1 (i 1)))
    (h5 : ∀ k : Fin 128, w1 (ix2 k (j 1)) = Wn (ix2 k (i 1)))
    (h6 : b1 (ix1 (j 1)) = bn (ix1 (i 1))) :
    k2_pay1 (F := Ideal) x0 x1 x2 w0 w1 b0 b1 j
      = Cert.Sage.mix (by decide : 50000 ≤ 100000) H msg rcp Ws bs Wn bn i := by
  obtain ⟨p, q, rfl⟩ : ∃ (p : Fin 5000) (q : Fin 128), j = ix2 p q := ⟨j 0, j 1, eq_ix2 j⟩
  have h0' : ∀ k : Fin 128, x0 (ix2 p k) = H (ix2 (Fin.castLE (by decide : 50000 ≤ 100000) (i 0)) k) := h0
  have h1' : ∀ k : Fin 128, x1 (ix2 p k) = msg (ix2 (i 0) k) := h1
  have h2' : x2 (ix2 p (0 : Fin 1)) = rcp (ix2 (i 0) (0 : Fin 1)) := h2
  have h3' : ∀ k : Fin 128, w0 (ix2 k q) = Ws (ix2 k (i 1)) := h3
  have h4' : b0 (ix1 q) = bs (ix1 (i 1)) := h4
  have h5' : ∀ k : Fin 128, w1 (ix2 k q) = Wn (ix2 k (i 1)) := h5
  have h6' : b1 (ix1 q) = bn (ix1 (i 1)) := h6
  rw [pay_apply]
  show _ = (((∑ k : Fin 128, H (ix2 (Fin.castLE (by decide : 50000 ≤ 100000) (i 0)) k) * Ws (ix2 k (i 1))) + bs (ix1 (i 1)))
    + ∑ k : Fin 128, (msg (ix2 (i 0) k) * rcp (ix2 (i 0) (0 : Fin 1))) * Wn (ix2 k (i 1))) + bn (ix1 (i 1))
  rw [h2', h4', h6']
  refine congrArg (· + _) (congrArg₂ (· + ·) (congrArg (· + _) (Finset.sum_congr rfl fun k _ => ?_))
    (Finset.sum_congr rfl fun k _ => ?_))
  · rw [h0', h3']
  · rw [h1', h5']

/-! ## From the blocks to the array -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices at grid point `t`: the features, the messages, the factors and the output move down the rows
    together, block `t` at point `t`; the weights and the biases stay at their one block. -/
theorem index_facts : ∀ t : Fin cfg2.N, win2_7.index t (0 : Fin 2) = t.val
    ∧ win2_7.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0 :=
  (by decide +kernel : ∀ t : Fin grid2.N, _)

/-! A block's coordinate in its array is (block index) × (block extent) + (coordinate inside the block).  With
`index_facts` this places every input block the body reads against the output block's entry `j`: the row blocks'
rows are the output block's rows, the weight and bias blocks are the whole arrays. -/

/-- Row `j₀` of the feature block is the feature array's row under the output block's row `j₀` (one of its first
    50000 rows). -/
theorem feature_rows (c : Dev nD) (t : Fin cfg2.N) (j : ((cfg2.win 7).xblock (cfg2.grid.coords t)).Idx) (k : Fin 128) :
    V c main_v21 (((cfg2.win 0).blk t).view.emb (ix2 (j 0) k))
      = V c main_v21 (ix2 (Fin.castLE (by decide : 50000 ≤ 100000) ((((cfg2.win 7).blk t).view.emb j) 0)) k) := by
  obtain ⟨e70, e71, e00, e01, -⟩ := index_facts t
  refine congrArg (V c main_v21 : S100000x128.Idx → EReal) (funext fun a => Fin.ext ?_)
  match a with
  | ⟨0, _⟩ =>
    show win2_0.index t (0 : Fin 2) * 5000 + 1 * (j 0).val = win2_7.index t (0 : Fin 2) * 5000 + 1 * (j 0).val
    rw [e00, e70]
  | ⟨1, _⟩ =>
    show win2_0.index t (1 : Fin 2) * 128 + 1 * k.val = k.val
    rw [e01]; omega

/-- Row `j₀` of the message block is the message array's row under the output block's row `j₀`. -/
theorem message_rows (c : Dev nD) (t : Fin cfg2.N) (j : ((cfg2.win 7).xblock (cfg2.grid.coords t)).Idx) (k : Fin 128) :
    V c main_v32 (((cfg2.win 1).blk t).view.emb (ix2 (j 0) k)) = V c main_v32 (ix2 ((((cfg2.win 7).blk t).view.emb j) 0) k) := by
  obtain ⟨e70, e71, e00, e01, e10, e11, -⟩ := index_facts t
  refine congrArg (V c main_v32 : S50000x128.Idx → EReal) (funext fun a => Fin.ext ?_)
  match a with
  | ⟨0, _⟩ =>
    show win2_1.index t (0 : Fin 2) * 5000 + 1 * (j 0).val = win2_7.index t (0 : Fin 2) * 5000 + 1 * (j 0).val
    rw [e10, e70]
  | ⟨1, _⟩ =>
    show win2_1.index t (1 : Fin 2) * 128 + 1 * k.val = k.val
    rw [e11]; omega

/-- Row `j₀` of the factor block is the factor array's row under the output block's row `j₀`. -/
theorem factor_rows (c : Dev nD) (t : Fin cfg2.N) (j : ((cfg2.win 7).xblock (cfg2.grid.coords t)).Idx) :
    V c main_v41 (((cfg2.win 2).blk t).view.emb (ix2 (j 0) (0 : Fin 1))) = V c main_v41 (ix2 ((((cfg2.win 7).blk t).view.emb j) 0) (0 : Fin 1)) := by
  obtain ⟨e70, e71, e00, e01, e10, e11, e20, e21, -⟩ := index_facts t
  refine congrArg (V c main_v41 : S50000x1.Idx → EReal) (funext fun a => Fin.ext ?_)
  match a with
  | ⟨0, _⟩ =>
    show win2_2.index t (0 : Fin 2) * 5000 + 1 * (j 0).val = win2_7.index t (0 : Fin 2) * 5000 + 1 * (j 0).val
    rw [e20, e70]
  | ⟨1, _⟩ =>
    show win2_2.index t (1 : Fin 2) * 1 + 1 * 0 = 0
    rw [e21]

/-- Column `j₁` of the first weight block is the whole weight's column under the output block's column `j₁`. -/
theorem self_weight_cols (c : Dev nD) (t : Fin cfg2.N) (j : ((cfg2.win 7).xblock (cfg2.grid.coords t)).Idx) (k : Fin 128) :
    V c main_arg7 (((cfg2.win 3).blk t).view.emb (ix2 k (j 1))) = V c main_arg7 (ix2 k ((((cfg2.win 7).blk t).view.emb j) 1)) := by
  obtain ⟨e70, e71, e00, e01, e10, e11, e20, e21, e30, e31, -⟩ := index_facts t
  refine congrArg (V c main_arg7 : S128x128.Idx → EReal) (funext fun a => Fin.ext ?_)
  match a with
  | ⟨0, _⟩ =>
    show win2_3.index t (0 : Fin 2) * 128 + 1 * k.val = k.val
    rw [e30]; omega
  | ⟨1, _⟩ =>
    show win2_3.index t (1 : Fin 2) * 128 + 1 * (j 1).val = win2_7.index t (1 : Fin 2) * 128 + 1 * (j 1).val
    rw [e31, e71]

/-- Entry `j₁` of the first bias block is the whole bias's entry under the output block's column `j₁`. -/
theorem self_bias_entry (c : Dev nD) (t : Fin cfg2.N) (j : ((cfg2.win 7).xblock (cfg2.grid.coords t)).Idx) :
    V c main_arg8 (((cfg2.win 4).blk t).view.emb (ix1 (j 1))) = V c main_arg8 (ix1 ((((cfg2.win 7).blk t).view.emb j) 1)) := by
  obtain ⟨e70, e71, e00, e01, e10, e11, e20, e21, e30, e31, e40, -⟩ := index_facts t
  refine congrArg (V c main_arg8 : S128.Idx → EReal) (funext fun a => Fin.ext ?_)
  match a with
  | ⟨0, _⟩ =>
    show win2_4.index t (0 : Fin 1) * 128 + 1 * (j 1).val = win2_7.index t (1 : Fin 2) * 128 + 1 * (j 1).val
    rw [e40, e71]

/-- Column `j₁` of the second weight block is the whole weight's column under the output block's column `j₁`. -/
theorem neigh_weight_cols (c : Dev nD) (t : Fin cfg2.N) (j : ((cfg2.win 7).xblock (cfg2.grid.coords t)).Idx) (k : Fin 128) :
    V c main_arg9 (((cfg2.win 5).blk t).view.emb (ix2 k (j 1))) = V c main_arg9 (ix2 k ((((cfg2.win 7).blk t).view.emb j) 1)) := by
  obtain ⟨e70, e71, e00, e01, e10, e11, e20, e21, e30, e31, e40, e50, e51, -⟩ := index_facts t
  refine congrArg (V c main_arg9 : S128x128.Idx → EReal) (funext fun a => Fin.ext ?_)
  match a with
  | ⟨0, _⟩ =>
    show win2_5.index t (0 : Fin 2) * 128 + 1 * k.val = k.val
    rw [e50]; omega
  | ⟨1, _⟩ =>
    show win2_5.index t (1 : Fin 2) * 128 + 1 * (j 1).val = win2_7.index t (1 : Fin 2) * 128 + 1 * (j 1).val
    rw [e51, e71]

/-- Entry `j₁` of the second bias block is the whole bias's entry under the output block's column `j₁`. -/
theorem neigh_bias_entry (c : Dev nD) (t : Fin cfg2.N) (j : ((cfg2.win 7).xblock (cfg2.grid.coords t)).Idx) :
    V c main_arg10 (((cfg2.win 6).blk t).view.emb (ix1 (j 1))) = V c main_arg10 (ix1 ((((cfg2.win 7).blk t).view.emb j) 1)) := by
  obtain ⟨e70, e71, e00, e01, e10, e11, e20, e21, e30, e31, e40, e50, e51, e60⟩ := index_facts t
  refine congrArg (V c main_arg10 : S128.Idx → EReal) (funext fun a => Fin.ext ?_)
  match a with
  | ⟨0, _⟩ =>
    show win2_6.index t (0 : Fin 1) * 128 + 1 * (j 1).val = win2_7.index t (1 : Fin 2) * 128 + 1 * (j 1).val
    rw [e60, e71]

/-- What point `t` writes back is block `t` of the combine layer of the whole arrays: the body's result on the
    seven blocks, each placed in its array by the lemmas above. -/
theorem flushed_eq (c : Dev nD) (t : Fin cfg2.N) :
    (dat2 (F := Ideal) V c).flushed 7 t = ((cfg2.win 7).blk t).view.read (Elt Ideal)
      (Cert.Sage.mix (by decide : 50000 ≤ 100000) (V c main_v21) (V c main_v32) (V c main_v41) (V c main_arg7) (V c main_arg8) (V c main_arg9) (V c main_arg10)) := by
  show (cfg2.win 7).cut (grid2.coords t) ((dat2 V c).after 7 t) = _
  rw [after2_7]
  unfold out2_7
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  funext j
  show k2_pay1 (iblk2 V c 0 t) (iblk2 V c 1 t) (iblk2 V c 2 t) (iblk2 V c 3 t) (iblk2 V c 5 t) (iblk2 V c 4 t) (iblk2 V c 6 t) j
    = Cert.Sage.mix (by decide : 50000 ≤ 100000) (V c main_v21) (V c main_v32) (V c main_v41) (V c main_arg7) (V c main_arg8) (V c main_arg9) (V c main_arg10) (((cfg2.win 7).blk t).view.emb j)
  exact block_value (V c main_v21) (V c main_v32) (V c main_v41) (V c main_arg7) (V c main_arg8) (V c main_arg9)
    (V c main_arg10) _ _ _ _ _ _ _ (((cfg2.win 7).blk t).view.emb j) j
    (fun k => feature_rows V c t j k) (fun k => message_rows V c t j k) (factor_rows V c t j)
    (fun k => self_weight_cols V c t j k) (self_bias_entry V c t j)
    (fun k => neigh_weight_cols V c t j k) (neigh_bias_entry V c t j)

/-- An index of the output array is in point `t`'s block iff each coordinate is in the block's range on its axis. -/
theorem mem_blk (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v42).slice (win2_7.rect t)).set ↔ _
  rw [View.set_slice_whole, Rect.mem_set_unit]
  exact Iff.rfl

/-- Every index of the output array is in some point's block: row `r` is in the block of point `r / 5000`. -/
theorem cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := rfl
  let t : Fin cfg2.N := ⟨(i 0).val / 5000, by rw [hN]; omega⟩
  obtain ⟨e70, e71, -⟩ := index_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    rw [e70]
    show (i 0).val / 5000 * 5000 ≤ (i 0).val ∧ (i 0).val < (i 0).val / 5000 * 5000 + 5000
    omega
  | ⟨1, _⟩ =>
    show win2_7.index t (1 : Fin 2) * 128 ≤ (i 1).val ∧ (i 1).val < win2_7.index t (1 : Fin 2) * 128 + 128
    rw [e71]; omega

end R2

variable (V : (c : Dev nD) → (b : Ref sig .tc) → Buf (Elt Ideal) ((c : Thread nD τ).loc b))

/-- The output array after the region: the combine layer, with the messages scaled by the stored per-node factors, of
    the feature, message, factor, weight and bias arrays as the region finds them. -/
theorem final2 (c : Dev nD) : ((dat2 (F := Ideal) V c).arrAt 7 cfg2.N : S50000x128.Idx → EReal)
      = Cert.Sage.mix (by decide : 50000 ≤ 100000) (V c main_v21) (V c main_v32) (V c main_v41) (V c main_arg7) (V c main_arg8) (V c main_arg9) (V c main_arg10) :=
  (dat2 V c).arrAt_eq_of_cover 7
    (Cert.Sage.mix (by decide : 50000 ≤ 100000) (V c main_v21) (V c main_v32) (V c main_v41) (V c main_arg7) (V c main_arg8) (V c main_arg9) (V c main_arg10))
    (fun t _ => R2.flushed_eq V c t) R2.cover

end Cert.KernelIdeal.RegionValue

end
-- ==== Proof.KFold.lean ====
/-
  The idealized kernel's result as one function of its arguments.

  The program's buffers are followed through its five segments. Region 0 leaves the first features
  `feat0 = max (x · W_init + b_init) 0`; the first host stretch leaves the messages summed along the first edge list and
  the stored reciprocal counts, and touches nothing else; region 1 leaves `feat1`, the rectified combine layer of
  `feat0`; the second stretch does the same along the second edge list; region 2 leaves the result, the combine layer
  of `feat1`. No segment writes an argument, so every array a later segment reads is the launch memory's or one of
  these. The run is then re-posted with the result array at `value` of the launch memory's arguments.
-/
import proofs.«112063_j11708080849339_2_alg».proof.Proof.Gen.KernelIdeal.Frame
import proofs.«112063_j11708080849339_2_alg».proof.Proof.Spec
import proofs.«112063_j11708080849339_2_alg».proof.Proof.KHost
import proofs.«112063_j11708080849339_2_alg».proof.Proof.KValue
import proofs.«112063_j11708080849339_2_alg».proof.Proof.KRun
import proofs.«112063_j11708080849339_2_alg».proof.Proof.Region0
import proofs.«112063_j11708080849339_2_alg».proof.Proof.Region1
import proofs.«112063_j11708080849339_2_alg».proof.Proof.Region2

set_option maxRecDepth 16384

noncomputable section

namespace Cert.KernelIdeal.FoldValue

open Cert.KernelIdeal Cert.KernelIdeal.Gen Cert.KernelIdeal.HostValue Cert.KernelIdeal.RegionValue
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After region 0 -/

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg7 (c : Dev nD) : W1 m ρ c (Proc.devRef .tc main_arg7) = m ((c : Thread nD τ).loc main_arg7) :=
  W1_of_ne m ρ c main_arg7 (by decide)
theorem W1_arg8 (c : Dev nD) : W1 m ρ c (Proc.devRef .tc main_arg8) = m ((c : Thread nD τ).loc main_arg8) :=
  W1_of_ne m ρ c main_arg8 (by decide)
theorem W1_arg9 (c : Dev nD) : W1 m ρ c (Proc.devRef .tc main_arg9) = m ((c : Thread nD τ).loc main_arg9) :=
  W1_of_ne m ρ c main_arg9 (by decide)
theorem W1_arg10 (c : Dev nD) : W1 m ρ c (Proc.devRef .tc main_arg10) = m ((c : Thread nD τ).loc main_arg10) :=
  W1_of_ne m ρ c main_arg10 (by decide)

theorem W1_v0 (c : Dev nD) : W1 m ρ c (Proc.devRef .tc main_v0) = feat0 (m ((c : Thread nD τ).loc main_arg0)) (m ((c : Thread nD τ).loc main_arg5)) (m ((c : Thread nD τ).loc main_arg6)) :=
  (W1_arr m ρ c 3).trans (final0 (V0 m ρ) c)

/-! ## After the first host stretch -/

theorem V2_arg3 (c : Dev nD) : V2 m ρ c main_arg3 = m ((c : Thread nD τ).loc main_arg3) :=
  (after1_arg3 (W1 m ρ c)).trans (W1_arg3 m ρ c)
theorem V2_arg4 (c : Dev nD) : V2 m ρ c main_arg4 = m ((c : Thread nD τ).loc main_arg4) :=
  (after1_arg4 (W1 m ρ c)).trans (W1_arg4 m ρ c)
theorem V2_arg7 (c : Dev nD) : V2 m ρ c main_arg7 = m ((c : Thread nD τ).loc main_arg7) :=
  (after1_arg7 (W1 m ρ c)).trans (W1_arg7 m ρ c)
theorem V2_arg8 (c : Dev nD) : V2 m ρ c main_arg8 = m ((c : Thread nD τ).loc main_arg8) :=
  (after1_arg8 (W1 m ρ c)).trans (W1_arg8 m ρ c)
theorem V2_arg9 (c : Dev nD) : V2 m ρ c main_arg9 = m ((c : Thread nD τ).loc main_arg9) :=
  (after1_arg9 (W1 m ρ c)).trans (W1_arg9 m ρ c)
theorem V2_arg10 (c : Dev nD) : V2 m ρ c main_arg10 = m ((c : Thread nD τ).loc main_arg10) :=
  (after1_arg10 (W1 m ρ c)).trans (W1_arg10 m ρ c)

theorem V2_v0 (c : Dev nD) : V2 m ρ c main_v0 = feat0 (m ((c : Thread nD τ).loc main_arg0)) (m ((c : Thread nD τ).loc main_arg5)) (m ((c : Thread nD τ).loc main_arg6)) :=
  (after1_v0 (W1 m ρ c)).trans (W1_v0 m ρ c)

theorem V2_v11 (c : Dev nD) : V2 m ρ c main_v11 = msgSum1 (feat0 (m ((c : Thread nD τ).loc main_arg0)) (m ((c : Thread nD τ).loc main_arg5)) (m ((c : Thread nD τ).loc main_arg6))) (m ((c : Thread nD τ).loc main_arg1)) (m ((c : Thread nD τ).loc main_arg2)) :=
  (after1_msg (W1 m ρ c)).trans (by rw [W1_v0 m ρ c, W1_arg1 m ρ c, W1_arg2 m ρ c])

theorem V2_v20 (c : Dev nD) : V2 m ρ c main_v20 = recip1 (m ((c : Thread nD τ).loc main_arg2)) :=
  (after1_recip (W1 m ρ c)).trans (by rw [W1_arg2 m ρ c])

/-! ## After region 1 -/

theorem W3_arg3 (c : Dev nD) : W3 m ρ c (Proc.devRef .tc main_arg3) = m ((c : Thread nD τ).loc main_arg3) :=
  (W3_of_ne m ρ c main_arg3 (by decide)).trans (V2_arg3 m ρ c)
theorem W3_arg4 (c : Dev nD) : W3 m ρ c (Proc.devRef .tc main_arg4) = m ((c : Thread nD τ).loc main_arg4) :=
  (W3_of_ne m ρ c main_arg4 (by decide)).trans (V2_arg4 m ρ c)
theorem W3_arg7 (c : Dev nD) : W3 m ρ c (Proc.devRef .tc main_arg7) = m ((c : Thread nD τ).loc main_arg7) :=
  (W3_arr m ρ c 3).trans (((dat1 (V2 m ρ) c).arrAt_in 3 rfl _).trans ((A_eq1 (V2 m ρ) c 3).trans (V2_arg7 m ρ c)))
theorem W3_arg8 (c : Dev nD) : W3 m ρ c (Proc.devRef .tc main_arg8) = m ((c : Thread nD τ).loc main_arg8) :=
  (W3_arr m ρ c 4).trans (((dat1 (V2 m ρ) c).arrAt_in 4 rfl _).trans ((A_eq1 (V2 m ρ) c 4).trans (V2_arg8 m ρ c)))
theorem W3_arg9 (c : Dev nD) : W3 m ρ c (Proc.devRef .tc main_arg9) = m ((c : Thread nD τ).loc main_arg9) :=
  (W3_arr m ρ c 5).trans (((dat1 (V2 m ρ) c).arrAt_in 5 rfl _).trans ((A_eq1 (V2 m ρ) c 5).trans (V2_arg9 m ρ c)))
theorem W3_arg10 (c : Dev nD) : W3 m ρ c (Proc.devRef .tc main_arg10) = m ((c : Thread nD τ).loc main_arg10) :=
  (W3_arr m ρ c 6).trans (((dat1 (V2 m ρ) c).arrAt_in 6 rfl _).trans ((A_eq1 (V2 m ρ) c 6).trans (V2_arg10 m ρ c)))

theorem W3_v21 (c : Dev nD) : W3 m ρ c (Proc.devRef .tc main_v21)
    = feat1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W3_arr m ρ c 7).trans ((final1 (V2 m ρ) c).trans (by
    rw [V2_v0 m ρ c, V2_v11 m ρ c, V2_v20 m ρ c, V2_arg7 m ρ c, V2_arg8 m ρ c, V2_arg9 m ρ c, V2_arg10 m ρ c]
    rfl))

/-! ## After the second host stretch -/

theorem V4_arg7 (c : Dev nD) : V4 m ρ c main_arg7 = m ((c : Thread nD τ).loc main_arg7) :=
  (after2_arg7 (W3 m ρ c)).trans (W3_arg7 m ρ c)
theorem V4_arg8 (c : Dev nD) : V4 m ρ c main_arg8 = m ((c : Thread nD τ).loc main_arg8) :=
  (after2_arg8 (W3 m ρ c)).trans (W3_arg8 m ρ c)
theorem V4_arg9 (c : Dev nD) : V4 m ρ c main_arg9 = m ((c : Thread nD τ).loc main_arg9) :=
  (after2_arg9 (W3 m ρ c)).trans (W3_arg9 m ρ c)
theorem V4_arg10 (c : Dev nD) : V4 m ρ c main_arg10 = m ((c : Thread nD τ).loc main_arg10) :=
  (after2_arg10 (W3 m ρ c)).trans (W3_arg10 m ρ c)

theorem V4_v21 (c : Dev nD) : V4 m ρ c main_v21
    = feat1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (after2_v21 (W3 m ρ c)).trans (W3_v21 m ρ c)

theorem V4_v32 (c : Dev nD) : V4 m ρ c main_v32
    = msgSum2 (feat1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg3)) (m ((c : Thread nD τ).loc main_arg4)) :=
  (after2_msg (W3 m ρ c)).trans (by rw [W3_v21 m ρ c, W3_arg3 m ρ c, W3_arg4 m ρ c])

theorem V4_v41 (c : Dev nD) : V4 m ρ c main_v41 = recip2 (m ((c : Thread nD τ).loc main_arg4)) :=
  (after2_recip (W3 m ρ c)).trans (by rw [W3_arg4 m ρ c])

/-! ## After region 2: the result -/

theorem W5_v42 (c : Dev nD) : W5 m ρ c (Proc.devRef .tc main_v42)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W5_arr m ρ c 7).trans ((final2 (V4 m ρ) c).trans (by
    rw [V4_v21 m ρ c, V4_v32 m ρ c, V4_v41 m ρ c, V4_arg7 m ρ c, V4_arg8 m ρ c, V4_arg9 m ρ c, V4_arg10 m ρ c]
    rfl))

/-! ## The run -/

/-- Every weakly fair execution of the idealized kernel terminates without a fault, its result array at `value` of the
    launch memory's arguments, and every argument array as launched. -/
theorem run : θ_run (defs (F := Ideal)) (onTc (τ := τ) (main (F := Ideal))) ⟨m, fun _ => 0, ρ⟩ (fun r => ∀ c : Dev nD,
      r.2.mem ((c.tc : Thread nD τ).loc main_v42)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨(h c).1.trans (W5_v42 m ρ c), (h c).2⟩)
    (Cert.KernelIdeal.RunValue.run_named m ρ)

end Cert.KernelIdeal.FoldValue

end
-- ==== Proof.RefLayers.lean ====
/-
  The reference program's three layers, read entry by entry.

  Each layer of the reference is a chain of whole-array operations: a matrix product, broadcasts of a bias row, sums,
  a quotient by a broadcast column, and (for the first two layers) a maximum with a zero splat.  Reading the chain at
  one entry (p, q) turns every broadcast into a read of the bias at q or of the divisor at p, every matrix product
  into a sum over the contracted axis, and the slice of the first rows into a read of the same row of the full array.
  What is left is exactly the closed form of the specification: the rectified affine map for the first layer, and the
  neighbour-mean combine layer for the other two, with the scattered message sums and the per-node divisors kept as
  opaque arrays.
-/
import proofs.«112063_j11708080849339_2_alg».proof.Proof.Gen.ReferenceIdeal.Read
import proofs.«112063_j11708080849339_2_alg».proof.Proof.Spec

noncomputable section

open scoped BigOperators

namespace Cert.ReferenceIdeal.Layers

open Cert.ReferenceIdeal Cert.ReferenceIdeal.Read Idealize.ShloMosaic Idealize.ShloMosaic.ValueIdx

/-! ## The first layer: a rectified affine map -/

/-- The left factor of the product is read at row p, column k. -/
theorem lidx_v0_ix2 (p : Fin 200000) (q : Fin 128) (k : Fin 16) : lidx_main_v0 (ix2 p q) k = ix2 p k :=
  funext fun a => Fin.ext (by match a with | ⟨0, _⟩ => rfl | ⟨1, _⟩ => rfl)

/-- The right factor of the product is read at row k, column q. -/
theorem ridx_v0_ix2 (p : Fin 200000) (q : Fin 128) (k : Fin 16) : ridx_main_v0 (ix2 p q) k = ix2 k q :=
  funext fun a => Fin.ext (by match a with | ⟨0, _⟩ => rfl | ⟨1, _⟩ => rfl)

/-- The bias row, broadcast over the nodes, is read at feature q. -/
theorem idx_v1_v2_ix2 (p : Fin 200000) (q : Fin 128) : idx_main_v1 (idx_main_v2 (ix2 p q)) = ix1 q :=
  funext fun a => Fin.ext (by match a with | ⟨0, _⟩ => rfl)

/-- The reference's first layer is the rectified affine map of the specification. -/
theorem layer0 (x0 : (⟨S200000x16, .f32⟩ : BufTy).Contents (Elt Ideal)) (x5 : (⟨S16x128, .f32⟩ : BufTy).Contents (Elt Ideal))
    (x6 : (⟨S128, .f32⟩ : BufTy).Contents (Elt Ideal)) :
    val_main_v4 (F := Ideal) x0 x5 x6 = Cert.Sage.proj x0 x5 x6 := by
  funext i
  obtain ⟨p, q, rfl⟩ : ∃ (p : Fin 200000) (q : Fin 128), i = ix2 p q := ⟨i 0, i 1, eq_ix2 i⟩
  rw [Cert.Sage.proj_ix2]
  unfold Cert.Sage.projAt
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_v0_ix2, ridx_v0_ix2,
    idx_v1_v2_ix2]

/-! ## The second layer: the neighbour-mean combine layer on the first 100000 nodes, rectified -/

/-- The left factor of the self product is read at row p, column k. -/
theorem lidx_v25_ix2 (p : Fin 100000) (q : Fin 128) (k : Fin 128) : lidx_main_v25 (ix2 p q) k = ix2 p k :=
  funext fun a => Fin.ext (by match a with | ⟨0, _⟩ => rfl | ⟨1, _⟩ => rfl)

/-- The self weights are read at row k, column q. -/
theorem ridx_v25_ix2 (p : Fin 100000) (q : Fin 128) (k : Fin 128) : ridx_main_v25 (ix2 p q) k = ix2 k q :=
  funext fun a => Fin.ext (by match a with | ⟨0, _⟩ => rfl | ⟨1, _⟩ => rfl)

/-- The slice of the first 100000 rows reads row p of the full array: the same row number, seen below 200000. -/
theorem idx_v24_ix2 (p : Fin 100000) (k : Fin 128) :
    idx_main_v24 (ix2 p k) = ix2 (Fin.castLE (by decide : 100000 ≤ 200000) p) k :=
  funext fun a => Fin.ext (by match a with | ⟨0, _⟩ => rfl | ⟨1, _⟩ => rfl)

/-- The self bias, broadcast over the nodes, is read at feature q. -/
theorem idx_v26_v27_ix2 (p : Fin 100000) (q : Fin 128) : idx_main_v26 (idx_main_v27 (ix2 p q)) = ix1 q :=
  funext fun a => Fin.ext (by match a with | ⟨0, _⟩ => rfl)

/-- The left factor of the neighbour product is read at row p, column k. -/
theorem lidx_v29_ix2 (p : Fin 100000) (q : Fin 128) (k : Fin 128) : lidx_main_v29 (ix2 p q) k = ix2 p k :=
  funext fun a => Fin.ext (by match a with | ⟨0, _⟩ => rfl | ⟨1, _⟩ => rfl)

/-- The neighbour weights are read at row k, column q. -/
theorem ridx_v29_ix2 (p : Fin 100000) (q : Fin 128) (k : Fin 128) : ridx_main_v29 (ix2 p q) k = ix2 k q :=
  funext fun a => Fin.ext (by match a with | ⟨0, _⟩ => rfl | ⟨1, _⟩ => rfl)

/-- The divisor, made a column and broadcast over the features, is read at node p. -/
theorem idx_v21_v22_ix2 (p : Fin 100000) (k : Fin 128) : idx_main_v21 (idx_main_v22 (ix2 p k)) = ix1 p :=
  funext fun a => Fin.ext (by match a with | ⟨0, _⟩ => rfl)

/-- The neighbour bias, broadcast over the nodes, is read at feature q. -/
theorem idx_v31_v32_ix2 (p : Fin 100000) (q : Fin 128) : idx_main_v31 (idx_main_v32 (ix2 p q)) = ix1 q :=
  funext fun a => Fin.ext (by match a with | ⟨0, _⟩ => rfl)

/-- The reference's second layer is the rectified neighbour-mean combine layer of the specification, on the first
    layer's output, the scattered message sums and the divisors (the larger of the edge count and one). -/
theorem layer1 (x0 : (⟨S200000x16, .f32⟩ : BufTy).Contents (Elt Ideal)) (x1 x2 : (⟨S1600000, .i32⟩ : BufTy).Contents (Elt Ideal))
    (x5 : (⟨S16x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v34 (F := Ideal) x0 x1 x2 x5 x6 x7 x8 x9 x10
      = Cert.Sage.relu (Cert.Sage.mean (by decide : 100000 ≤ 200000) (val_main_v4 (F := Ideal) x0 x5 x6)
          (val_main_v14 (F := Ideal) x0 x1 x2 x5 x6) (val_main_v20 (F := Ideal) x2) x7 x8 x9 x10) := by
  funext i
  obtain ⟨p, q, rfl⟩ : ∃ (p : Fin 100000) (q : Fin 128), i = ix2 p q := ⟨i 0, i 1, eq_ix2 i⟩
  unfold Cert.Sage.relu
  show _ = max (Cert.Sage.mean _ _ _ _ _ _ _ _ (ix2 p q)) 0
  rw [Cert.Sage.mean_ix2]
  unfold Cert.Sage.meanAt
  rw [val_main_v34_apply, val_main_v33_apply, val_main_v30_apply, val_main_v28_apply, val_main_v25_apply,
    val_main_v27_apply, val_main_v26_apply, val_main_v29_apply, val_main_v32_apply, val_main_v31_apply,
    val_main_call1_v0_apply, val_main_call1_cst_apply]
  -- the self product: the slice's row p is row p of the full first-layer output
  have hS : (∑ k : Fin 128, val_main_v24 (F := Ideal) x0 x5 x6 (lidx_main_v25 (ix2 p q) k) * x7 (ridx_main_v25 (ix2 p q) k))
      = ∑ k : Fin 128, val_main_v4 (F := Ideal) x0 x5 x6 (ix2 (Fin.castLE (by decide : 100000 ≤ 200000) p) k) * x7 (ix2 k q) :=
    Finset.sum_congr rfl fun k _ => by
      rw [lidx_v25_ix2, ridx_v25_ix2, val_main_v24_apply, idx_v24_ix2]
  -- the neighbour product: each message entry of row p is divided by the divisor of node p
  have hN : (∑ k : Fin 128, val_main_v23 (F := Ideal) x0 x1 x2 x5 x6 (lidx_main_v29 (ix2 p q) k) * x9 (ridx_main_v29 (ix2 p q) k))
      = ∑ k : Fin 128, Ideal.div (val_main_v14 (F := Ideal) x0 x1 x2 x5 x6 (ix2 p k)) (val_main_v20 (F := Ideal) x2 (ix1 p)) * x9 (ix2 k q) :=
    Finset.sum_congr rfl fun k _ => by
      rw [lidx_v29_ix2, ridx_v29_ix2, val_main_v23_apply, val_main_v22_apply, val_main_v21_apply, idx_v21_v22_ix2,
        Ideal.hostDivf_def]
  rw [hS, hN, idx_v26_v27_ix2, idx_v31_v32_ix2, Ideal.maximumf_def, Ideal.addf_def, Ideal.addf_def, Ideal.addf_def,
    Ideal.ofBits_def, Ideal.ofBits_zero_f32]

/-! ## The third layer: the same combine layer on the first 50000 nodes, not rectified -/

/-- The left factor of the self product is read at row p, column k. -/
theorem lidx_v55_ix2 (p : Fin 50000) (q : Fin 128) (k : Fin 128) : lidx_main_v55 (ix2 p q) k = ix2 p k :=
  funext fun a => Fin.ext (by match a with | ⟨0, _⟩ => rfl | ⟨1, _⟩ => rfl)

/-- The self weights are read at row k, column q. -/
theorem ridx_v55_ix2 (p : Fin 50000) (q : Fin 128) (k : Fin 128) : ridx_main_v55 (ix2 p q) k = ix2 k q :=
  funext fun a => Fin.ext (by match a with | ⟨0, _⟩ => rfl | ⟨1, _⟩ => rfl)

/-- The slice of the first 50000 rows reads row p of the full array: the same row number, seen below 100000. -/
theorem idx_v54_ix2 (p : Fin 50000) (k : Fin 128) :
    idx_main_v54 (ix2 p k) = ix2 (Fin.castLE (by decide : 50000 ≤ 100000) p) k :=
  funext fun a => Fin.ext (by match a with | ⟨0, _⟩ => rfl | ⟨1, _⟩ => rfl)

/-- The self bias, broadcast over the nodes, is read at feature q. -/
theorem idx_v56_v57_ix2 (p : Fin 50000) (q : Fin 128) : idx_main_v56 (idx_main_v57 (ix2 p q)) = ix1 q :=
  funext fun a => Fin.ext (by match a with | ⟨0, _⟩ => rfl)

/-- The left factor of the neighbour product is read at row p, column k. -/
theorem lidx_v59_ix2 (p : Fin 50000) (q : Fin 128) (k : Fin 128) : lidx_main_v59 (ix2 p q) k = ix2 p k :=
  funext fun a => Fin.ext (by match a with | ⟨0, _⟩ => rfl | ⟨1, _⟩ => rfl)

/-- The neighbour weights are read at row k, column q. -/
theorem ridx_v59_ix2 (p : Fin 50000) (q : Fin 128) (k : Fin 128) : ridx_main_v59 (ix2 p q) k = ix2 k q :=
  funext fun a => Fin.ext (by match a with | ⟨0, _⟩ => rfl | ⟨1, _⟩ => rfl)

/-- The divisor, made a column and broadcast over the features, is read at node p. -/
theorem idx_v51_v52_ix2 (p : Fin 50000) (k : Fin 128) : idx_main_v51 (idx_main_v52 (ix2 p k)) = ix1 p :=
  funext fun a => Fin.ext (by match a with | ⟨0, _⟩ => rfl)

/-- The neighbour bias, broadcast over the nodes, is read at feature q. -/
theorem idx_v61_v62_ix2 (p : Fin 50000) (q : Fin 128) : idx_main_v61 (idx_main_v62 (ix2 p q)) = ix1 q :=
  funext fun a => Fin.ext (by match a with | ⟨0, _⟩ => rfl)

/-- The reference's third layer is the neighbour-mean combine layer of the specification, on the second layer's
    output, the scattered message sums and the divisors (the larger of the edge count and one); it has no rectifier. -/
theorem layer2 (x0 : (⟨S200000x16, .f32⟩ : BufTy).Contents (Elt Ideal)) (x1 x2 : (⟨S1600000, .i32⟩ : BufTy).Contents (Elt Ideal))
    (x3 x4 : (⟨S800000, .i32⟩ : BufTy).Contents (Elt Ideal)) (x5 : (⟨S16x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v63 (F := Ideal) x0 x1 x2 x3 x4 x5 x6 x7 x8 x9 x10
      = Cert.Sage.mean (by decide : 50000 ≤ 100000) (val_main_v34 (F := Ideal) x0 x1 x2 x5 x6 x7 x8 x9 x10)
          (val_main_v44 (F := Ideal) x0 x1 x2 x3 x4 x5 x6 x7 x8 x9 x10) (val_main_v50 (F := Ideal) x4) x7 x8 x9 x10 := by
  funext i
  obtain ⟨p, q, rfl⟩ : ∃ (p : Fin 50000) (q : Fin 128), i = ix2 p q := ⟨i 0, i 1, eq_ix2 i⟩
  rw [Cert.Sage.mean_ix2]
  unfold Cert.Sage.meanAt
  rw [val_main_v63_apply, val_main_v60_apply, val_main_v58_apply, val_main_v55_apply, val_main_v57_apply,
    val_main_v56_apply, val_main_v59_apply, val_main_v62_apply, val_main_v61_apply]
  -- the self product: the slice's row p is row p of the full second-layer output
  have hS : (∑ k : Fin 128, val_main_v54 (F := Ideal) x0 x1 x2 x5 x6 x7 x8 x9 x10 (lidx_main_v55 (ix2 p q) k) * x7 (ridx_main_v55 (ix2 p q) k))
      = ∑ k : Fin 128, val_main_v34 (F := Ideal) x0 x1 x2 x5 x6 x7 x8 x9 x10 (ix2 (Fin.castLE (by decide : 50000 ≤ 100000) p) k) * x7 (ix2 k q) :=
    Finset.sum_congr rfl fun k _ => by
      rw [lidx_v55_ix2, ridx_v55_ix2, val_main_v54_apply, idx_v54_ix2]
  -- the neighbour product: each message entry of row p is divided by the divisor of node p
  have hN : (∑ k : Fin 128, val_main_v53 (F := Ideal) x0 x1 x2 x3 x4 x5 x6 x7 x8 x9 x10 (lidx_main_v59 (ix2 p q) k) * x9 (ridx_main_v59 (ix2 p q) k))
      = ∑ k : Fin 128, Ideal.div (val_main_v44 (F := Ideal) x0 x1 x2 x3 x4 x5 x6 x7 x8 x9 x10 (ix2 p k)) (val_main_v50 (F := Ideal) x4 (ix1 p)) * x9 (ix2 k q) :=
    Finset.sum_congr rfl fun k _ => by
      rw [lidx_v59_ix2, ridx_v59_ix2, val_main_v53_apply, val_main_v52_apply, val_main_v51_apply, idx_v51_v52_ix2,
        Ideal.hostDivf_def]
  rw [hS, hN, idx_v56_v57_ix2, idx_v61_v62_ix2, Ideal.addf_def, Ideal.addf_def, Ideal.addf_def]

end Cert.ReferenceIdeal.Layers

end
-- ==== Proof.Bridge.lean ====
/-
  The idealized kernel's result is the idealized reference's.

  Between the dense layers both programs run the same operations on the same arrays: wrap negative source nodes once,
  gather the source rows, add them into the destination rows from zero, count the edges per destination and take the
  maximum with one. So the reference's message sums and divisors ARE the kernel's host functions of the previous
  layer's features (the kernel's change of float format on the gathered rows is the identity on extended reals). The
  dense layers were read entry by entry on both sides: the kernel multiplies a message by the stored reciprocal of the
  divisor, the reference divides by it, and the divisor is never zero, so the layers agree.
-/
import proofs.«112063_j11708080849339_2_alg».proof.Proof.KValue
import proofs.«112063_j11708080849339_2_alg».proof.Proof.RefLayers

noncomputable section

namespace Cert.Proof.Bridge

open Idealize.ShloMosaic
open Cert.ReferenceIdeal.Read Cert.ReferenceIdeal.Layers
open Cert.KernelIdeal.HostValue Cert.KernelIdeal.FoldValue

/-- The reference's first message sums are the kernel's, of the reference's first features. -/
theorem msg1_ref (x0 : (⟨Cert.ReferenceIdeal.S200000x16, .f32⟩ : BufTy).Contents (Elt Ideal)) (x1 x2 : (⟨Cert.ReferenceIdeal.S1600000, .i32⟩ : BufTy).Contents (Elt Ideal))
    (x5 : (⟨Cert.ReferenceIdeal.S16x128, .f32⟩ : BufTy).Contents (Elt Ideal)) (x6 : (⟨Cert.ReferenceIdeal.S128, .f32⟩ : BufTy).Contents (Elt Ideal)) :
    val_main_v14 (F := Ideal) x0 x1 x2 x5 x6 = msgSum1 (val_main_v4 (F := Ideal) x0 x5 x6) x1 x2 := rfl

/-- The reference's first divisors are the kernel's. -/
theorem div1_ref (x2 : (⟨Cert.ReferenceIdeal.S1600000, .i32⟩ : BufTy).Contents (Elt Ideal)) : val_main_v20 (F := Ideal) x2 = divisor1 x2 := rfl

/-- The reference's second message sums are the kernel's, of the reference's second features. -/
theorem msg2_ref (x0 : (⟨Cert.ReferenceIdeal.S200000x16, .f32⟩ : BufTy).Contents (Elt Ideal)) (x1 x2 : (⟨Cert.ReferenceIdeal.S1600000, .i32⟩ : BufTy).Contents (Elt Ideal)) (x3 x4 : (⟨Cert.ReferenceIdeal.S800000, .i32⟩ : BufTy).Contents (Elt Ideal))
    (x5 : (⟨Cert.ReferenceIdeal.S16x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x9 : (⟨Cert.ReferenceIdeal.S128x128, .f32⟩ : BufTy).Contents (Elt Ideal)) (x10 : (⟨Cert.ReferenceIdeal.S128, .f32⟩ : BufTy).Contents (Elt Ideal)) :
    val_main_v44 (F := Ideal) x0 x1 x2 x3 x4 x5 x6 x7 x8 x9 x10
      = msgSum2 (val_main_v34 (F := Ideal) x0 x1 x2 x5 x6 x7 x8 x9 x10) x3 x4 := rfl

/-- The reference's second divisors are the kernel's. -/
theorem div2_ref (x4 : (⟨Cert.ReferenceIdeal.S800000, .i32⟩ : BufTy).Contents (Elt Ideal)) : val_main_v50 (F := Ideal) x4 = divisor2 x4 := rfl

/-- The reference's features after the first combine layer are the kernel's. -/
theorem feat1_ref (x0 : (⟨Cert.ReferenceIdeal.S200000x16, .f32⟩ : BufTy).Contents (Elt Ideal)) (x1 x2 : (⟨Cert.ReferenceIdeal.S1600000, .i32⟩ : BufTy).Contents (Elt Ideal))
    (x5 : (⟨Cert.ReferenceIdeal.S16x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x9 : (⟨Cert.ReferenceIdeal.S128x128, .f32⟩ : BufTy).Contents (Elt Ideal)) (x10 : (⟨Cert.ReferenceIdeal.S128, .f32⟩ : BufTy).Contents (Elt Ideal)) :
    val_main_v34 (F := Ideal) x0 x1 x2 x5 x6 x7 x8 x9 x10 = feat1 x0 x1 x2 x5 x6 x7 x8 x9 x10 := by
  rw [layer1, msg1_ref, div1_ref, layer0]
  unfold feat1 feat0
  rw [Cert.Sage.mix_eq_mean _ _ _ _ (divisor1 x2) _ _ _ _ (recip1_at x2) (divisor1_ne x2)]

/-- The idealized kernel's value of the arguments is the reference's result term. -/
theorem value_eq (x0 : (⟨Cert.ReferenceIdeal.S200000x16, .f32⟩ : BufTy).Contents (Elt Ideal)) (x1 x2 : (⟨Cert.ReferenceIdeal.S1600000, .i32⟩ : BufTy).Contents (Elt Ideal)) (x3 x4 : (⟨Cert.ReferenceIdeal.S800000, .i32⟩ : BufTy).Contents (Elt Ideal))
    (x5 : (⟨Cert.ReferenceIdeal.S16x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x9 : (⟨Cert.ReferenceIdeal.S128x128, .f32⟩ : BufTy).Contents (Elt Ideal)) (x10 : (⟨Cert.ReferenceIdeal.S128, .f32⟩ : BufTy).Contents (Elt Ideal)) :
    value x0 x1 x2 x3 x4 x5 x6 x7 x8 x9 x10 = val_main_v63 (F := Ideal) x0 x1 x2 x3 x4 x5 x6 x7 x8 x9 x10 := by
  rw [layer2, msg2_ref, div2_ref, feat1_ref]
  unfold value
  rw [Cert.Sage.mix_eq_mean _ _ _ _ (divisor2 x4) _ _ _ _ (recip2_at x4) (divisor2_ne x4)]

end Cert.Proof.Bridge

end
-- ==== Proof.lean ====
/-
  A two-layer neighbour-mean graph network: a tiled kernel program against its array-language reference, equal on
  the extended reals.

  Both programs compute, from node inputs `x`, two edge lists and shared weights,

      feat0 = max (x · W_init + b_init) 0                                        (200000 nodes),
      feat1 = max (combine feat0 over the first edge list) 0                      (the first 100000 nodes),
      out   = combine feat1 over the second edge list                             (the first 50000 nodes),

  where `combine H` at node `p`, feature `q` is `((Σₖ H[p,k] Ws[k,q] + bs[q]) + Σₖ mean[p,k] Wn[k,q]) + bn[q]` and
  `mean[p,·]` is the sum of the rows `H[src e]` over the edges `e` into `p`, over `max (count p, 1)`.

  The kernel program runs the three dense layers as pipelined regions over row blocks (its narrowings to a shorter
  float format are the identity on extended reals, its matrix products into a zero accumulator are plain sums) and the
  gathers, scatter-adds and counts as host operations between them; it stores `1 / max (count, 1)` and multiplies,
  where the reference divides. Since the divisor is at least one, `m · (1 / c) = m / c` for every extended real
  `m`, so no finiteness of the inputs is needed: the precondition is never opened.

  The pieces: each region's output array as one function of the arrays it finds (Region0, Region1, Region2); the host
  stretches as functions of what they read (KHost); the buffers followed through the five segments and the kernel's
  run with its result named (KRun, KFold); the reference's layers read entry by entry (RefLayers) over its generated
  run; the two results one function (Bridge). The kernel programs' frames are the generated ones; the ideal pass
  rewrote nothing, so `preserves` is trivial.
-/
import proofs.«112063_j11708080849339_2_alg».proof.Defs
import proofs.«112063_j11708080849339_2_alg».proof.Proof.Gen.Kernel
import proofs.«112063_j11708080849339_2_alg».proof.Proof.Gen.Kernel.Frame
import proofs.«112063_j11708080849339_2_alg».proof.Proof.Gen.KernelIdeal
import proofs.«112063_j11708080849339_2_alg».proof.Proof.Gen.KernelIdeal.Frame
import proofs.«112063_j11708080849339_2_alg».proof.Proof.Gen.ReferenceIdeal
import proofs.«112063_j11708080849339_2_alg».proof.Proof.Gen.ReferenceIdeal.Run
import proofs.«112063_j11708080849339_2_alg».proof.Proof.Gen.ReferenceIdeal.Read
import proofs.«112063_j11708080849339_2_alg».proof.Proof.Gen.Pre_finite_inputs
import proofs.«112063_j11708080849339_2_alg».proof.Proof.KFold
import proofs.«112063_j11708080849339_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the same result: the kernel's run leaves `value` of its arguments, the
    reference's run leaves its composed term of arguments that agree, and the two are one function. -/
theorem algebraic : Cert.algebraic_KernelIdeal_ReferenceIdeal := by
  intro m ρ m' ρ' _ hagree
  refine ⟨fun c => Cert.KernelIdeal.FoldValue.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.FoldValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v63_eq, h0, h1, h2, h3, h4, h5, h6, h7, h8, h9, h10]
  exact (Cert.Proof.Bridge.value_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
